-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_arg15 : FVec F S1024x1024 .f32) (main_arg16 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  main_v83

def fn_part3 {F : FTy → Type} [FloatOps F] (main_arg11 : FVec F S1024 .f32) (main_arg12 : FVec F S1024x1024 .f32) (main_arg13 : FVec F S1024x1024 .f32) (main_arg14 : FVec F S1024 .f32) (main_arg15 : FVec F S1024x1024 .f32) (main_arg16 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_v63 main_v67

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_arg15 : FVec F S1024x1024 .f32) (main_arg16 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_arg15 : FVec F S1024x1024 .f32) (main_arg16 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_arg15 : FVec F S1024x1024 .f32) (main_arg16 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S512x1024 : Shape := ⟨2, ![512, 1024]⟩
abbrev S512x4096 : Shape := ⟨2, ![512, 4096]⟩
abbrev S1x4096 : Shape := ⟨2, ![1, 4096]⟩
abbrev S1x1024 : Shape := ⟨2, ![1, 1024]⟩
abbrev S512 : Shape := ⟨1, ![512]⟩
abbrev S512x1 : Shape := ⟨2, ![512, 1]⟩

abbrev nBuf : Space → Nat
  | .hbm => 26
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x4096, .f32⟩
  | .hbm, ⟨18, _⟩ => ⟨S1024x4096, .bf16⟩
  | .hbm, ⟨19, _⟩ => ⟨S1024x4096, .f32⟩
  | .hbm, ⟨20, _⟩ => ⟨S1024x4096, .bf16⟩
  | .hbm, ⟨21, _⟩ => ⟨S4096, .f32⟩
  | .hbm, ⟨22, _⟩ => ⟨S1024x1024, .bf16⟩
  | .hbm, ⟨23, _⟩ => ⟨S8192x1024, .f32⟩
  | .hbm, ⟨24, _⟩ => ⟨S8192x1024, .f32⟩
  | .hbm, ⟨25, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x4096, .bf16⟩
  | .local _ .vmem, ⟨7, _⟩ => ⟨S1024x4096, .bf16⟩
  | .local _ .vmem, ⟨8, _⟩ => ⟨S4096, .f32⟩
  | .local _ .vmem, ⟨9, _⟩ => ⟨S1024x1024, .bf16⟩
  | .local _ .vmem, ⟨10, _⟩ => ⟨S1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  inb_S512x1024_S512x1024_0_0 : ∀ a, (![0, 0] : Fin 2 → Nat) a + S512x1024.size a ≤ S512x1024.size a
  h_S512x1024 : 0 < S512x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S512x4096 : S1x4096.Broadcasts S512x4096
  slices_S512x4096_o0_0_S512x1024 : S512x4096.Slices ![0, 0] S512x1024
  slices_S512x4096_o0_1024_S512x1024 : S512x4096.Slices ![0, 1024] S512x1024
  slices_S512x4096_o0_2048_S512x1024 : S512x4096.Slices ![0, 2048] S512x1024
  slices_S512x4096_o0_3072_S512x1024 : S512x4096.Slices ![0, 3072] S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  dot_S512x1024_S1024x4096_S512x4096_1_0_0_1_n_n_wf : DotDims.WF S512x1024 S1024x4096 S512x4096 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .f32 = 32 ∨ (Rect.block (s := S8192x1024) S512x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .f32 = 32 ∨ (Rect.block (s := S8192x1024) S512x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S8192x1024.size a
  hwx0_10 : ∀ i : grid0.Coords, EltTy.bits .f32 = 32 ∨ (Rect.block (s := S8192x1024) S512x1024.size (cc0_transform_10 i) (hinb0_10 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg16) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S512x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_2) S512x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x4096, .f32⟩
  | .hbm, ⟨18, _⟩ => ⟨S1024x4096, .f32⟩
  | .hbm, ⟨19, _⟩ => ⟨S4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1, .f32⟩
  | .hbm, ⟨77, _⟩ => ⟨S8192x1024, .f32⟩
  | .hbm, ⟨78, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call0_cst : Ref sig .tc := ⟨.hbm, 64, rfl⟩
abbrev main_call0_v0 : Ref sig .tc := ⟨.hbm, 65, rfl⟩
abbrev main_call0_cst_0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_cst_1 : Ref sig .tc := ⟨.hbm, 73, rfl⟩
abbrev main_call0_v7 : Ref sig .tc := ⟨.hbm, 74, rfl⟩
abbrev main_call0_v8 : Ref sig .tc := ⟨.hbm, 75, rfl⟩
abbrev main_call0_v9 : Ref sig .tc := ⟨.hbm, 76, rfl⟩
abbrev main_call0_v10 : Ref sig .tc := ⟨.hbm, 77, rfl⟩
abbrev main_v41 : Ref sig .tc := ⟨.hbm, 78, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  dot_S8192x1024_S1024x4096_S8192x4096_1_0_0_1_n_n_wf : DotDims.WF S8192x1024 S1024x4096 S8192x4096 [1] [0] [0] [1] [] []
  dot_S8192x1024_S1024x1024_S8192x1024_1_0_0_1_n_n_wf : DotDims.WF S8192x1024 S1024x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.KernelFrame.lean ====
/-
  The frame of the LSTM step as a pipelined kernel: sixteen grid points, each staging 512 rows of the input, the
  hidden state and the cell state beside the resident joined gate weights, joined bias, output projection and its
  bias, and writing back 512 rows of the log-softmax output, the new hidden state and the new cell state.
  Before the region the host joins the four gate matrices (and the four biases) along the gate axis and narrows the
  joined matrices and the projection; none of these lines writes an argument.  The body loads every staged block
  whole, computes, and stores each of its three output blocks whole, so what each output buffer holds after a point
  is one function of that point's input blocks (`out0_8`, `out0_9`, `out0_10`), and every argument array ends as
  it was launched.  Stated at any float instance.
-/
import proofs.«145524_j53188874993812_1_alg».proof.Proof.Gen.Kernel.Launch
import proofs.«145524_j53188874993812_1_alg».proof.Proof.Gen.Kernel.Skeleton
import proofs.«145524_j53188874993812_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- Core `c`'s buffers when the region is entered: after the six host lines (three joins, three narrowings). -/
abbrev V (c : Dev nD) (b : Ref sig .tc) : Buf (Elt F) ((c : Thread nD τ).loc b) :=
  StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- @main is the host lines followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 16. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (a resident
    window's index never moves), for any proof data over the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## Every argument array ends as launched -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).1 7).trans (((dats 0 c).arrAt_in 7 rfl _).trans ((hA c 7).trans (V_main_arg16 m c)))⟩) h

/-! ## The body's accesses: every staged buffer whole -/

abbrev rAct : Rect S512x1024 := Rect.unit (s := S512x1024) ![0, 0] S512x1024.size inb_S512x1024_S512x1024_0_0
abbrev rGate : Rect S1024x4096 := Rect.unit (s := S1024x4096) ![0, 0] S1024x4096.size inb_S1024x4096_S1024x4096_0_0
abbrev rBias : Rect S4096 := Rect.unit (s := S4096) ![0] S4096.size inb_S4096_S4096_0
abbrev rProj : Rect S1024x1024 := Rect.unit (s := S1024x1024) ![0, 0] S1024x1024.size inb_S1024x1024_S1024x1024_0_0
abbrev rOutBias : Rect S1024 := Rect.unit (s := S1024) ![0] S1024.size inb_S1024_S1024_0

/-! ## What the body leaves in each output buffer -/

/-- The log-softmax block: the logits less their row maximum, less the log of the row sum of their exponentials. -/
def out0_8 (x0 x1 x2 : Vec F S512x1024 .f32) (x3 x4 : Vec F S1024x4096 .bf16) (x5 : Vec F S4096 .f32) (x6 : Vec F S1024x1024 .bf16) (x7 : Vec F S1024 .f32) : Vec F S512x1024 .f32 :=
  View.canon [⟨rAct, k0_pay1 (k0_pay5 (View.ld x0 rAct) (View.ld x1 rAct) (View.ld x2 rAct) (View.ld x3 rGate) (View.ld x4 rGate) (View.ld x5 rBias) (View.ld x6 rProj) (View.ld x7 rOutBias)) (k0_pay6 (View.ld x0 rAct) (View.ld x1 rAct) (View.ld x2 rAct) (View.ld x3 rGate) (View.ld x4 rGate) (View.ld x5 rBias) (View.ld x6 rProj) (View.ld x7 rOutBias))⟩]
/-- The new hidden block: the output gate times tanh of the new cell. -/
def out0_9 (x0 x1 x2 : Vec F S512x1024 .f32) (x3 x4 : Vec F S1024x4096 .bf16) (x5 : Vec F S4096 .f32) (x6 : Vec F S1024x1024 .bf16) (x7 : Vec F S1024 .f32) : Vec F S512x1024 .f32 :=
  View.canon [⟨rAct, k0_pay4 (View.ld x0 rAct) (View.ld x1 rAct) (View.ld x2 rAct) (View.ld x3 rGate) (View.ld x4 rGate) (View.ld x5 rBias)⟩]
/-- The new cell block: forget gate times cell plus input gate times candidate. -/
def out0_10 (x0 x1 x2 : Vec F S512x1024 .f32) (x3 x4 : Vec F S1024x4096 .bf16) (x5 : Vec F S4096 .f32) (x6 : Vec F S1024x1024 .bf16) (x7 : Vec F S1024 .f32) : Vec F S512x1024 .f32 :=
  View.canon [⟨rAct, k0_pay3 (View.ld x0 rAct) (View.ld x1 rAct) (View.ld x2 rAct) (View.ld x3 rGate) (View.ld x4 rGate) (View.ld x5 rBias)⟩]

/-- One whole-block store covers the buffer. -/
theorem cover_act (p0 : Vec F S512x1024 .f32) (y : S512x1024.Idx) :
    ∃ pc ∈ ([⟨rAct, p0⟩] : List (View.Piece (Elt F) S512x1024 .f32)), y ∈ pc.1.set :=
  View.cover_of_tiled [⟨rAct, p0⟩] S512x1024.size (by rfl) y

/-! ## The body's triple -/

set_option maxHeartbeats 4000000 in
/-- The body on whole staging memrefs, the inputs' at contents `xW` and the outputs' at anything, runs to the
    continuation holding the inputs' as they were and each output's at `out0_W` of the inputs'. -/
theorem sound_kernel (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S4096 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x0 x1 x2 : Vec F S512x1024 .f32) (x3 x4 : Vec F S1024x4096 .bf16) (x5 : Vec F S4096 .f32) (x6 : Vec F S1024x1024 .bf16) (x7 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4 x5 x6 x7) ∗ owns (c : Thread nD τ) arg11 fullShare (out0_10 x0 x1 x2 x3 x4 x5 x6 x7)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover_act _)
  isplitl [H9]
  · iexists _; isplitr
    swap; · iexact H9
    ipureintro
    try dsimp only
    exact View.read_writes_eq_canon _ _ _ (cover_act _)
  iexists _; isplitr
  swap; · iexact H10
  ipureintro
  try dsimp only
  exact View.read_writes_eq_canon _ _ _ (cover_act _)

/-! ## The pipeline's proof data -/

/-- After the body at point `t` each input's buffer holds its block and each output's the body's function of the
    input blocks; the invariant is the untouched rest; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t) (iblk m c 7 t)
    | ⟨10, _⟩ => out0_10 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, each array of the pipeline ending at what the proof data
    computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.Kernel.Lstm

end
-- ==== Proof.KernelIdealFrame.lean ====
/-
  The frame of the LSTM step as a pipelined kernel: sixteen grid points, each staging 512 rows of the input, the
  hidden state and the cell state beside the resident joined gate weights, joined bias, output projection and its
  bias, and writing back 512 rows of the log-softmax output, the new hidden state and the new cell state.
  Before the region the host joins the four gate matrices (and the four biases) along the gate axis and narrows the
  joined matrices and the projection; none of these lines writes an argument.  The body loads every staged block
  whole, computes, and stores each of its three output blocks whole, so what each output buffer holds after a point
  is one function of that point's input blocks (`out0_8`, `out0_9`, `out0_10`), and every argument array ends as
  it was launched.  Stated at any float instance.
-/
import proofs.«145524_j53188874993812_1_alg».proof.Proof.Gen.KernelIdeal.Launch
import proofs.«145524_j53188874993812_1_alg».proof.Proof.Gen.KernelIdeal.Skeleton
import proofs.«145524_j53188874993812_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- Core `c`'s buffers when the region is entered: after the six host lines (three joins, three narrowings). -/
abbrev V (c : Dev nD) (b : Ref sig .tc) : Buf (Elt F) ((c : Thread nD τ).loc b) :=
  StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- @main is the host lines followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the region writes argument 16. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (a resident
    window's index never moves), for any proof data over the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## Every argument array ends as launched -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).1 7).trans (((dats 0 c).arrAt_in 7 rfl _).trans ((hA c 7).trans (V_main_arg16 m c)))⟩) h

/-! ## The body's accesses: every staged buffer whole -/

abbrev rAct : Rect S512x1024 := Rect.unit (s := S512x1024) ![0, 0] S512x1024.size inb_S512x1024_S512x1024_0_0
abbrev rGate : Rect S1024x4096 := Rect.unit (s := S1024x4096) ![0, 0] S1024x4096.size inb_S1024x4096_S1024x4096_0_0
abbrev rBias : Rect S4096 := Rect.unit (s := S4096) ![0] S4096.size inb_S4096_S4096_0
abbrev rProj : Rect S1024x1024 := Rect.unit (s := S1024x1024) ![0, 0] S1024x1024.size inb_S1024x1024_S1024x1024_0_0
abbrev rOutBias : Rect S1024 := Rect.unit (s := S1024) ![0] S1024.size inb_S1024_S1024_0

/-! ## What the body leaves in each output buffer -/

/-- The log-softmax block: the logits less their row maximum, less the log of the row sum of their exponentials. -/
def out0_8 (x0 x1 x2 : Vec F S512x1024 .f32) (x3 x4 : Vec F S1024x4096 .bf16) (x5 : Vec F S4096 .f32) (x6 : Vec F S1024x1024 .bf16) (x7 : Vec F S1024 .f32) : Vec F S512x1024 .f32 :=
  View.canon [⟨rAct, k0_pay1 (k0_pay5 (View.ld x0 rAct) (View.ld x1 rAct) (View.ld x2 rAct) (View.ld x3 rGate) (View.ld x4 rGate) (View.ld x5 rBias) (View.ld x6 rProj) (View.ld x7 rOutBias)) (k0_pay6 (View.ld x0 rAct) (View.ld x1 rAct) (View.ld x2 rAct) (View.ld x3 rGate) (View.ld x4 rGate) (View.ld x5 rBias) (View.ld x6 rProj) (View.ld x7 rOutBias))⟩]
/-- The new hidden block: the output gate times tanh of the new cell. -/
def out0_9 (x0 x1 x2 : Vec F S512x1024 .f32) (x3 x4 : Vec F S1024x4096 .bf16) (x5 : Vec F S4096 .f32) (x6 : Vec F S1024x1024 .bf16) (x7 : Vec F S1024 .f32) : Vec F S512x1024 .f32 :=
  View.canon [⟨rAct, k0_pay4 (View.ld x0 rAct) (View.ld x1 rAct) (View.ld x2 rAct) (View.ld x3 rGate) (View.ld x4 rGate) (View.ld x5 rBias)⟩]
/-- The new cell block: forget gate times cell plus input gate times candidate. -/
def out0_10 (x0 x1 x2 : Vec F S512x1024 .f32) (x3 x4 : Vec F S1024x4096 .bf16) (x5 : Vec F S4096 .f32) (x6 : Vec F S1024x1024 .bf16) (x7 : Vec F S1024 .f32) : Vec F S512x1024 .f32 :=
  View.canon [⟨rAct, k0_pay3 (View.ld x0 rAct) (View.ld x1 rAct) (View.ld x2 rAct) (View.ld x3 rGate) (View.ld x4 rGate) (View.ld x5 rBias)⟩]

/-- One whole-block store covers the buffer. -/
theorem cover_act (p0 : Vec F S512x1024 .f32) (y : S512x1024.Idx) :
    ∃ pc ∈ ([⟨rAct, p0⟩] : List (View.Piece (Elt F) S512x1024 .f32)), y ∈ pc.1.set :=
  View.cover_of_tiled [⟨rAct, p0⟩] S512x1024.size (by rfl) y

/-! ## The body's triple -/

set_option maxHeartbeats 4000000 in
/-- The body on whole staging memrefs, the inputs' at contents `xW` and the outputs' at anything, runs to the
    continuation holding the inputs' as they were and each output's at `out0_W` of the inputs'. -/
theorem sound_kernel (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S4096 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x0 x1 x2 : Vec F S512x1024 .f32) (x3 x4 : Vec F S1024x4096 .bf16) (x5 : Vec F S4096 .f32) (x6 : Vec F S1024x1024 .bf16) (x7 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4 x5 x6 x7) ∗ owns (c : Thread nD τ) arg11 fullShare (out0_10 x0 x1 x2 x3 x4 x5 x6 x7)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover_act _)
  isplitl [H9]
  · iexists _; isplitr
    swap; · iexact H9
    ipureintro
    try dsimp only
    exact View.read_writes_eq_canon _ _ _ (cover_act _)
  iexists _; isplitr
  swap; · iexact H10
  ipureintro
  try dsimp only
  exact View.read_writes_eq_canon _ _ _ (cover_act _)

/-! ## The pipeline's proof data -/

/-- After the body at point `t` each input's buffer holds its block and each output's the body's function of the
    input blocks; the invariant is the untouched rest; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t) (iblk m c 7 t)
    | ⟨10, _⟩ => out0_10 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, each array of the pipeline ending at what the proof data
    computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.KernelIdeal.Lstm

end
-- ==== Proof.LstmSpec.lean ====
/-
  One LSTM step followed by a log-softmax read-out, row by row, on the extended reals.
  For one row of the input `x`, the hidden state `h` and the cell state `c`, with the four gate matrices joined
  along the gate axis (`W`, `U` : 1024 × 4096, bias `b` : 4096), the read-out matrix `P` and its bias `d`:
    gate q      = (Σ_k x_k · W_kq + Σ_k h_k · U_kq) + b_q
    cell' j     = σ(gate j) · c_j + σ(gate (1024 + j)) · tanh(gate (2048 + j))
    hidden' j   = σ(gate (3072 + j)) · tanh(cell' j)
    logit j     = Σ_k hidden'_k · P_kj + d_j
    out j       = (logit j − max_j' logit j') − log Σ_j' exp(logit j' − max_j'' logit j'')
  with σ x = 1 / (1 + exp(−x)). Whole arrays are these row functions applied to each row.
-/
import Idealize.ShloMosaic.PureOps.Ideal
import Idealize.ShloMosaic.PureOps.IdealRules
import Idealize.ShloMosaic.Lib.ValueIdx

noncomputable section

namespace Cert.LstmSpec

open Idealize.ShloMosaic Idealize.ShloMosaic.ValueIdx

section Row

variable (x h c : Fin 1024 → EReal) (W U : Fin 1024 → Fin 4096 → EReal) (b : Fin 4096 → EReal)
  (P : Fin 1024 → Fin 1024 → EReal) (d : Fin 1024 → EReal)

/-- A gate pre-activation: both products, then the bias. -/
def gate (q : Fin 4096) : EReal := (∑ k : Fin 1024, x k * W k q + ∑ k : Fin 1024, h k * U k q) + b q

/-- Column `j` of the gate block that starts at column `off`. -/
def colAt (off : Nat) (hoff : off + 1024 ≤ 4096) (j : Fin 1024) : Fin 4096 := ⟨off + j.val, by have := j.isLt; omega⟩

/-- The new cell: forget gate times the old cell plus input gate times the candidate. -/
def cellNew (j : Fin 1024) : EReal :=
  Ideal.logistic (gate x h W U b (colAt 0 (by decide) j)) * c j
    + Ideal.logistic (gate x h W U b (colAt 1024 (by decide) j)) * Ideal.tanh (gate x h W U b (colAt 2048 (by decide) j))

/-- The new hidden state: output gate times tanh of the new cell. -/
def hidNew (j : Fin 1024) : EReal :=
  Ideal.logistic (gate x h W U b (colAt 3072 (by decide) j)) * Ideal.tanh (cellNew x h c W U b j)

/-- The logits of the read-out. -/
def logit (j : Fin 1024) : EReal := ∑ k : Fin 1024, hidNew x h c W U b k * P k j + d j

/-- The row's largest logit (from minus infinity). -/
def rowMax : EReal := (Finset.univ : Finset (Fin 1024)).fold max ⊥ (logit x h c W U b P d)

/-- A logit less the row's maximum. -/
def shifted (j : Fin 1024) : EReal := logit x h c W U b P d j - rowMax x h c W U b P d

/-- The log-softmax of the row. -/
def logSoftmax (j : Fin 1024) : EReal :=
  shifted x h c W U b P d j - Ideal.log (∑ j' : Fin 1024, Ideal.exp (shifted x h c W U b P d j'))

end Row

/-! ## Whole arrays, any number of rows -/

/-- Row `r` of a two-axis array. -/
def rowOf {R C : Nat} (X : (⟨2, ![R, C]⟩ : Shape).Idx → EReal) (r : Fin R) : Fin C → EReal := fun k => X (ix2 r k)
/-- A two-axis array as a function of its two coordinates. -/
def matOf {R C : Nat} (X : (⟨2, ![R, C]⟩ : Shape).Idx → EReal) : Fin R → Fin C → EReal := fun k q => X (ix2 k q)
/-- A one-axis array as a function of its coordinate. -/
def vecOf {C : Nat} (X : (⟨1, ![C]⟩ : Shape).Idx → EReal) : Fin C → EReal := fun q => X (ix1 q)

variable {R : Nat} (X H C : (⟨2, ![R, 1024]⟩ : Shape).Idx → EReal) (W U : (⟨2, ![1024, 4096]⟩ : Shape).Idx → EReal)
  (b : (⟨1, ![4096]⟩ : Shape).Idx → EReal) (P : (⟨2, ![1024, 1024]⟩ : Shape).Idx → EReal) (d : (⟨1, ![1024]⟩ : Shape).Idx → EReal)

/-- The new cell state at row `r`, column `j`. -/
def cellAt (r : Fin R) (j : Fin 1024) : EReal := cellNew (rowOf X r) (rowOf H r) (rowOf C r) (matOf W) (matOf U) (vecOf b) j
/-- The new hidden state at row `r`, column `j`. -/
def hidAt (r : Fin R) (j : Fin 1024) : EReal := hidNew (rowOf X r) (rowOf H r) (rowOf C r) (matOf W) (matOf U) (vecOf b) j
/-- The log-softmax output at row `r`, column `j`. -/
def outAt (r : Fin R) (j : Fin 1024) : EReal :=
  logSoftmax (rowOf X r) (rowOf H r) (rowOf C r) (matOf W) (matOf U) (vecOf b) (matOf P) (vecOf d) j

/-- The three result arrays, index by index. -/
def cellArr : (⟨2, ![R, 1024]⟩ : Shape).Idx → EReal := fun i => cellAt X H C W U b (i 0) (i 1)
def hidArr : (⟨2, ![R, 1024]⟩ : Shape).Idx → EReal := fun i => hidAt X H C W U b (i 0) (i 1)
def outArr : (⟨2, ![R, 1024]⟩ : Shape).Idx → EReal := fun i => outAt X H C W U b P d (i 0) (i 1)

theorem cellArr_ix (r : Fin R) (j : Fin 1024) : cellArr X H C W U b (ix2 r j) = cellAt X H C W U b r j := rfl
theorem hidArr_ix (r : Fin R) (j : Fin 1024) : hidArr X H C W U b (ix2 r j) = hidAt X H C W U b r j := rfl
theorem outArr_ix (r : Fin R) (j : Fin 1024) : outArr X H C W U b P d (ix2 r j) = outAt X H C W U b P d r j := rfl

/-- Minus infinity's pattern denotes the bottom element. -/
theorem ofBits_neg_inf : Ideal.ofBits .f32 0xFF800000#32 = (⊥ : EReal) := by
  simp [Ideal.ofBits, Ideal.ieee]

/-- One's pattern denotes one. -/
theorem ofBits_one : Ideal.ofBits .f32 0x3F800000#32 = (1 : EReal) :=
  IdealRules.sign_bit.ideal_onePat .f32

end Cert.LstmSpec

end
-- ==== Proof.KernelPayload.lean ====
/-
  The kernel body's arithmetic read at an index, at the ideal instance, for one block of 512 rows: each value the
  body stores is the specification's row function applied to the block's rows. The narrowing to bf16 is the identity,
  a product into a zero accumulator is the plain sum over the contracted coordinate, the bias row is the same down
  the block, the four column blocks of the gates are the gates at shifted columns, the lane maximum is the fold of
  max from minus infinity and the lane sum starts from zero.
-/
import proofs.«145524_j53188874993812_1_alg».proof.Proof.Gen.KernelIdeal.Skeleton
import proofs.«145524_j53188874993812_1_alg».proof.Proof.LstmSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Cert.LstmSpec
open Idealize.ShloMosaic Idealize.ShloMosaic.TcCoe Idealize.ShloMosaic.ValueIdx

theorem gateDot_l0 (i : S512x4096.Idx) (q : dot_S512x1024_S1024x4096_S512x4096_1_0_0_1_n_n.contr.Idx) : (dot_S512x1024_S1024x4096_S512x4096_1_0_0_1_n_n.lhsIdx i q 0).val = (i 0).val := by
  unfold DotDims.lhsIdx
  rw [dif_neg (show ¬(0 : Fin S512x1024.rank) ∈ dot_S512x1024_S1024x4096_S512x4096_1_0_0_1_n_n.lhsBatch by decide), dif_pos (show (0 : Fin S512x1024.rank) ∈ dot_S512x1024_S1024x4096_S512x4096_1_0_0_1_n_n.lhsNonContracting by decide)]
  rfl
theorem gateDot_r1 (i : S512x4096.Idx) (q : dot_S512x1024_S1024x4096_S512x4096_1_0_0_1_n_n.contr.Idx) : (dot_S512x1024_S1024x4096_S512x4096_1_0_0_1_n_n.rhsIdx i q 1).val = (i 1).val := by
  unfold DotDims.rhsIdx
  rw [dif_neg (show ¬(1 : Fin S1024x4096.rank) ∈ dot_S512x1024_S1024x4096_S512x4096_1_0_0_1_n_n.rhsBatch by decide), dif_pos (show (1 : Fin S1024x4096.rank) ∈ dot_S512x1024_S1024x4096_S512x4096_1_0_0_1_n_n.rhsNonContracting by decide)]
  rfl
/-- The product at (r, q) is the sum over k of the left operand's row r times the right operand's column q. -/
theorem gateDot (X : FVec Ideal S512x1024 .bf16) (W : FVec Ideal S1024x4096 .bf16) (r : Fin 512) (q : Fin 4096) :
    matmul dot_S512x1024_S1024x4096_S512x4096_1_0_0_1_n_n none X W (constant S512x4096 .f32 0x00000000#32) (ix2 r q) = ∑ k : Fin 1024, X (ix2 r k) * W (ix2 k q) := by
  refine (Ideal.matmul_constant_zero_apply dot_S512x1024_S1024x4096_S512x4096_1_0_0_1_n_n none X W (ix2 r q)).trans ?_
  rw [← Equiv.sum_comp (ValueIdx.contrEquiv1 dot_S512x1024_S1024x4096_S512x4096_1_0_0_1_n_n 1024 rfl rfl).symm]
  refine Finset.sum_congr rfl fun k _ => ?_
  have hk := ValueIdx.contrEquiv1_symm_val dot_S512x1024_S1024x4096_S512x4096_1_0_0_1_n_n 1024 rfl rfl k
  have el : dot_S512x1024_S1024x4096_S512x4096_1_0_0_1_n_n.lhsIdx (ix2 r q) ((ValueIdx.contrEquiv1 dot_S512x1024_S1024x4096_S512x4096_1_0_0_1_n_n 1024 rfl rfl).symm k) = ix2 r k := funext fun a => Fin.ext (by
    match a with
    | ⟨0, _⟩ => exact gateDot_l0 _ _
    | ⟨1, _⟩ => exact (dot_S512x1024_S1024x4096_S512x4096_1_0_0_1_n_n.lhsIdx_val_of_single rfl _ _).trans hk)
  have er : dot_S512x1024_S1024x4096_S512x4096_1_0_0_1_n_n.rhsIdx (ix2 r q) ((ValueIdx.contrEquiv1 dot_S512x1024_S1024x4096_S512x4096_1_0_0_1_n_n 1024 rfl rfl).symm k) = ix2 k q := funext fun a => Fin.ext (by
    match a with
    | ⟨0, _⟩ => exact (dot_S512x1024_S1024x4096_S512x4096_1_0_0_1_n_n.rhsIdx_val_of_single rfl _ _).trans hk
    | ⟨1, _⟩ => exact gateDot_r1 _ _)
  rw [el, er]

theorem outDot_l0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem outDot_r1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
/-- The product at (r, q) is the sum over k of the left operand's row r times the right operand's column q. -/
theorem outDot (X : FVec Ideal S512x1024 .bf16) (W : FVec Ideal S1024x1024 .bf16) (r : Fin 512) (q : Fin 1024) :
    matmul dot_S512x1024_S1024x1024_S512x1024_1_0_0_1_n_n none X W (constant S512x1024 .f32 0x00000000#32) (ix2 r q) = ∑ k : Fin 1024, X (ix2 r k) * W (ix2 k q) := by
  refine (Ideal.matmul_constant_zero_apply dot_S512x1024_S1024x1024_S512x1024_1_0_0_1_n_n none X W (ix2 r q)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r q) ((ValueIdx.contrEquiv1 dot_S512x1024_S1024x1024_S512x1024_1_0_0_1_n_n 1024 rfl rfl).symm k) = ix2 r k := funext fun a => Fin.ext (by
    match a with
    | ⟨0, _⟩ => exact outDot_l0 _ _
    | ⟨1, _⟩ => exact (dot_S512x1024_S1024x1024_S512x1024_1_0_0_1_n_n.lhsIdx_val_of_single rfl _ _).trans hk)
  have er : dot_S512x1024_S1024x1024_S512x1024_1_0_0_1_n_n.rhsIdx (ix2 r q) ((ValueIdx.contrEquiv1 dot_S512x1024_S1024x1024_S512x1024_1_0_0_1_n_n 1024 rfl rfl).symm k) = ix2 k q := funext fun a => Fin.ext (by
    match a with
    | ⟨0, _⟩ => exact (dot_S512x1024_S1024x1024_S512x1024_1_0_0_1_n_n.rhsIdx_val_of_single rfl _ _).trans hk
    | ⟨1, _⟩ => exact outDot_r1 _ _)
  rw [el, er]

/-- The joined bias as a row, spread down the block, reads the bias at the column. -/
theorem biasRow (b : FVec Ideal S4096 .f32) (p : Fin 512) (q : Fin 4096) :
    broadcastTo S512x4096 (shapeCast S1x4096 (shapeCast S4096 b shapeCasts_S4096_S4096) shapeCasts_S4096_S1x4096) broadcasts_S1x4096_S512x4096 (ix2 p q) = b (ix1 q) := by
  rw [shapeCast_self]
  exact (broadcastTo_1b_ab_apply _ broadcasts_S1x4096_S512x4096 p q).trans (shapeCast_a_1a_apply b shapeCasts_S4096_S1x4096 0 q)

/-- The read-out bias likewise. -/
theorem outBiasRow (d : FVec Ideal S1024 .f32) (p : Fin 512) (j : Fin 1024) :
    broadcastTo S512x1024 (shapeCast S1x1024 d shapeCasts_S1024_S1x1024) broadcasts_S1x1024_S512x1024 (ix2 p j) = d (ix1 j) :=
  (broadcastTo_1b_ab_apply _ broadcasts_S1x1024_S512x1024 p j).trans (shapeCast_a_1a_apply d shapeCasts_S1024_S1x1024 0 j)

/-- A per-row value as a column, spread along the row, reads the row's value. -/
theorem rowSpread (v : FVec Ideal S512 .f32) (p : Fin 512) (j : Fin 1024) :
    broadcastTo S512x1024 (shapeCast S512x1 v shapeCasts_S512_S512x1) broadcasts_S512x1_S512x1024 (ix2 p j) = v (ix1 p) := by
  refine (broadcastTo_apply _ broadcasts_S512x1_S512x1024 (ix2 p j) (ix2 p (0 : Fin 1)) (fun a => match a with
    | ⟨0, _⟩ => by show p.val = if (512 : Nat) = 1 then 0 else p.val; rw [if_neg (by decide)]
    | ⟨1, _⟩ => by show 0 = if (1 : Nat) = 1 then 0 else j.val; rw [if_pos rfl])).trans ?_
  refine shapeCast_apply v shapeCasts_S512_S512x1 _ (ix1 p) ?_
  rw [Shape.rowMajor_val_two, Shape.rowMajor_val_one]
  show p.val = p.val * 1 + 0
  omega

/-- The same with the log taken on the column. -/
theorem rowSpreadLog (v : FVec Ideal S512 .f32) (p : Fin 512) (j : Fin 1024) :
    broadcastTo S512x1024 (log (F := Ideal) (shapeCast S512x1 v shapeCasts_S512_S512x1)) broadcasts_S512x1_S512x1024 (ix2 p j) = Ideal.log (v (ix1 p)) := by
  refine (broadcastTo_apply _ broadcasts_S512x1_S512x1024 (ix2 p j) (ix2 p (0 : Fin 1)) (fun a => match a with
    | ⟨0, _⟩ => by show p.val = if (512 : Nat) = 1 then 0 else p.val; rw [if_neg (by decide)]
    | ⟨1, _⟩ => by show 0 = if (1 : Nat) = 1 then 0 else j.val; rw [if_pos rfl])).trans ?_
  refine congrArg Ideal.log (shapeCast_apply v shapeCasts_S512_S512x1 _ (ix1 p) ?_)
  rw [Shape.rowMajor_val_two, Shape.rowMajor_val_one]
  show p.val = p.val * 1 + 0
  omega

/-- A column block of the gates at (p, j) is the gates at (p, off + j). -/
theorem gateBlock (g : FVec Ideal S512x4096 .f32) (off : Nat) (hoff : off + 1024 ≤ 4096) (hs : S512x4096.Slices ![0, off] S512x1024) (p : Fin 512) (j : Fin 1024) :
    extractStridedSlice S512x1024 ![0, off] g hs (ix2 p j) = g (ix2 p (colAt off hoff j)) :=
  extractStridedSlice_apply ![0, off] g hs (ix2 p j) (ix2 p (colAt off hoff j)) (fun a => match a with
    | ⟨0, _⟩ => by show p.val = 0 + p.val; omega
    | ⟨1, _⟩ => by show off + j.val = off + j.val; rfl)

variable (x0 x1 x2 : Vec Ideal S512x1024 .f32) (x3 x4 : Vec Ideal S1024x4096 .bf16) (x5 : Vec Ideal S4096 .f32)
  (x6 : Vec Ideal S1024x1024 .bf16) (x7 : Vec Ideal S1024 .f32)

/-- The gate pre-activations of the block at (p, q). -/
theorem gates_apply (p : Fin 512) (q : Fin 4096) :
    k0_pay2 (F := Ideal) x0 x1 x3 x4 x5 (ix2 p q) = gate (rowOf x0 p) (rowOf x1 p) (matOf x3) (matOf x4) (vecOf x5) q := by
  unfold k0_pay2 gate
  try dsimp only
  rw [shapeCast_self, shapeCast_self]
  refine (congrArg₂ (· + ·) (congrArg₂ (· + ·) (gateDot _ x3 p q) (gateDot _ x4 p q)) (biasRow x5 p q)).trans ?_
  rfl

/-- The new cell of the block at (p, j). -/
theorem cell_apply (p : Fin 512) (j : Fin 1024) :
    k0_pay3 (F := Ideal) x0 x1 x2 x3 x4 x5 (ix2 p j) = cellAt x0 x1 x2 x3 x4 x5 p j := by
  unfold k0_pay3 cellAt cellNew
  try dsimp only
  show Ideal.logistic (extractStridedSlice S512x1024 ![0, 0] (k0_pay2 (F := Ideal) x0 x1 x3 x4 x5) slices_S512x4096_o0_0_S512x1024 (ix2 p j)) * x2 (ix2 p j)
    + Ideal.logistic (extractStridedSlice S512x1024 ![0, 1024] (k0_pay2 (F := Ideal) x0 x1 x3 x4 x5) slices_S512x4096_o0_1024_S512x1024 (ix2 p j))
      * Ideal.tanh (extractStridedSlice S512x1024 ![0, 2048] (k0_pay2 (F := Ideal) x0 x1 x3 x4 x5) slices_S512x4096_o0_2048_S512x1024 (ix2 p j)) = _
  rw [gateBlock _ 0 (by decide), gateBlock _ 1024 (by decide), gateBlock _ 2048 (by decide), gates_apply, gates_apply, gates_apply]
  rfl

/-- The new hidden state of the block at (p, j). -/
theorem hid_apply (p : Fin 512) (j : Fin 1024) :
    k0_pay4 (F := Ideal) x0 x1 x2 x3 x4 x5 (ix2 p j) = hidAt x0 x1 x2 x3 x4 x5 p j := by
  unfold k0_pay4 hidAt hidNew
  try dsimp only
  show Ideal.logistic (extractStridedSlice S512x1024 ![0, 3072] (k0_pay2 (F := Ideal) x0 x1 x3 x4 x5) slices_S512x4096_o0_3072_S512x1024 (ix2 p j))
    * Ideal.tanh (k0_pay3 (F := Ideal) x0 x1 x2 x3 x4 x5 (ix2 p j)) = _
  rw [gateBlock _ 3072 (by decide), gates_apply, cell_apply]
  rfl

/-- The logits of the block at (p, j). -/
theorem logits_apply (p : Fin 512) (j : Fin 1024) :
    k0_pay5 (F := Ideal) x0 x1 x2 x3 x4 x5 x6 x7 (ix2 p j)
      = logit (rowOf x0 p) (rowOf x1 p) (rowOf x2 p) (matOf x3) (matOf x4) (vecOf x5) (matOf x6) (vecOf x7) j := by
  unfold k0_pay5 logit
  try dsimp only
  rw [shapeCast_self]
  refine (congrArg₂ (· + ·) (outDot _ x6 p j) (outBiasRow x7 p j)).trans ?_
  refine congrArg (· + vecOf x7 j) (Finset.sum_congr rfl fun k _ => ?_)
  show k0_pay4 (F := Ideal) x0 x1 x2 x3 x4 x5 (ix2 p k) * x6 (ix2 k j) = _
  rw [hid_apply]
  rfl

/-- The row maximum, spread along the row, at (p, j). -/
theorem rowMax_apply (p : Fin 512) (j : Fin 1024) :
    k0_pay6 (F := Ideal) x0 x1 x2 x3 x4 x5 x6 x7 (ix2 p j)
      = rowMax (rowOf x0 p) (rowOf x1 p) (rowOf x2 p) (matOf x3) (matOf x4) (vecOf x5) (matOf x6) (vecOf x7) := by
  unfold k0_pay6 rowMax
  try dsimp only
  rw [rowSpread]
  refine (Ideal.multiReduction_maximumf_single _ _ reduces_S512x1024_S512 (.inl rfl) rfl (ix1 p)).trans ?_
  show (Finset.univ : Finset (Fin 1024)).fold max (Ideal.ofBits .f32 0xFF800000#32) _ = _
  rw [ofBits_neg_inf]
  refine congrArg (Finset.fold max ⊥ · Finset.univ) (funext fun k => ?_)
  have e : reduces_S512x1024_S512.lift (ix1 p) k = ix2 p k := funext fun a => Fin.ext (by match a with | ⟨0, _⟩ => rfl | ⟨1, _⟩ => rfl)
  exact (congrArg (k0_pay5 (F := Ideal) x0 x1 x2 x3 x4 x5 x6 x7) e).trans (logits_apply x0 x1 x2 x3 x4 x5 x6 x7 p k)

/-- The log-softmax of the block at (p, j): the stored value, from the logits and their spread row maximum. -/
theorem out_apply (p : Fin 512) (j : Fin 1024) :
    k0_pay1 (F := Ideal) (k0_pay5 x0 x1 x2 x3 x4 x5 x6 x7) (k0_pay6 x0 x1 x2 x3 x4 x5 x6 x7) (ix2 p j)
      = outAt x0 x1 x2 x3 x4 x5 x6 x7 p j := by
  have hsh : ∀ j' : Fin 1024, k0_pay5 (F := Ideal) x0 x1 x2 x3 x4 x5 x6 x7 (ix2 p j') - k0_pay6 (F := Ideal) x0 x1 x2 x3 x4 x5 x6 x7 (ix2 p j')
      = shifted (rowOf x0 p) (rowOf x1 p) (rowOf x2 p) (matOf x3) (matOf x4) (vecOf x5) (matOf x6) (vecOf x7) j' := fun j' => by
    rw [logits_apply, rowMax_apply]; rfl
  unfold k0_pay1 outAt logSoftmax
  try dsimp only
  show (k0_pay5 (F := Ideal) x0 x1 x2 x3 x4 x5 x6 x7 (ix2 p j) - k0_pay6 (F := Ideal) x0 x1 x2 x3 x4 x5 x6 x7 (ix2 p j))
    - broadcastTo S512x1024 (log (F := Ideal) (shapeCast S512x1 _ shapeCasts_S512_S512x1)) broadcasts_S512x1_S512x1024 (ix2 p j) = _
  rw [hsh, rowSpreadLog]
  refine congrArg (fun s : EReal => (shifted (rowOf x0 p) (rowOf x1 p) (rowOf x2 p) (matOf x3) (matOf x4) (vecOf x5) (matOf x6) (vecOf x7) j : EReal) - Ideal.log s) ?_
  refine (Ideal.multiReduction_add_single _ _ reduces_S512x1024_S512 (.inl rfl) rfl (ix1 p)).trans ?_
  refine Finset.sum_congr rfl fun k _ => ?_
  have e : reduces_S512x1024_S512.lift (ix1 p) k = ix2 p k := funext fun a => Fin.ext (by match a with | ⟨0, _⟩ => rfl | ⟨1, _⟩ => rfl)
  rw [e]
  exact congrArg Ideal.exp (hsh k)

end Cert.KernelIdeal.Payload

end
-- ==== Proof.KernelValue.lean ====
/-
  The kernel's three result arrays, at the ideal instance, as the specification's arrays of the argument arrays.
  Point `t` of the sixteen stages rows 512·t … 512·t + 511 of the input, hidden and cell arrays and the whole of the
  joined gate matrices, the joined bias, the read-out matrix and its bias (which the host lines before the region
  wrote: joins of the arguments, narrowed, and narrowing is the identity here); what it writes back through each
  output window is those rows of the specification's array; and the sixteen row blocks cover each output array.
-/
import proofs.«145524_j53188874993812_1_alg».proof.Proof.KernelIdealFrame
import proofs.«145524_j53188874993812_1_alg».proof.Proof.KernelPayload
import Idealize.ShloMosaic.Lib.Pipeline.Value
import Idealize.ShloMosaic.Lib.StableHlo.Run

set_option maxRecDepth 16384

noncomputable section

namespace Cert.KernelIdeal.LstmValue

open Cert.KernelIdeal Cert.KernelIdeal.Gen Cert.KernelIdeal.Lstm Cert.KernelIdeal.Payload Cert.LstmSpec
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The four input-side gate matrices joined along the gate axis. -/
def Wj (c : Dev nD) : S1024x4096.Idx → EReal := (concatenate S1024x4096 1 [⟨S1024x1024, m ((c : Thread nD τ).loc main_arg3)⟩, ⟨S1024x1024, m ((c : Thread nD τ).loc main_arg6)⟩, ⟨S1024x1024, m ((c : Thread nD τ).loc main_arg9)⟩, ⟨S1024x1024, m ((c : Thread nD τ).loc main_arg12)⟩] concatenates_S1024x1024_S1024x1024_S1024x1024_S1024x1024_S1024x4096_d1)
/-- The four hidden-side gate matrices joined along the gate axis. -/
def Uj (c : Dev nD) : S1024x4096.Idx → EReal := (concatenate S1024x4096 1 [⟨S1024x1024, m ((c : Thread nD τ).loc main_arg4)⟩, ⟨S1024x1024, m ((c : Thread nD τ).loc main_arg7)⟩, ⟨S1024x1024, m ((c : Thread nD τ).loc main_arg10)⟩, ⟨S1024x1024, m ((c : Thread nD τ).loc main_arg13)⟩] concatenates_S1024x1024_S1024x1024_S1024x1024_S1024x1024_S1024x4096_d1)
/-- The four gate biases end to end. -/
def bj (c : Dev nD) : S4096.Idx → EReal := (concatenate S4096 0 [⟨S1024, m ((c : Thread nD τ).loc main_arg5)⟩, ⟨S1024, m ((c : Thread nD τ).loc main_arg8)⟩, ⟨S1024, m ((c : Thread nD τ).loc main_arg11)⟩, ⟨S1024, m ((c : Thread nD τ).loc main_arg14)⟩] concatenates_S1024_S1024_S1024_S1024_S4096_d0)

/-! ## What the host lines before the region leave in the arrays the region stages -/

theorem V_main_v1 (c : Dev nD) : V m c main_v1 = Wj m c := by
  dsimp only [V, hostOps0]
  after_results_simp
  try dsimp only [Matrix.cons_val]
  rfl
theorem V_main_v3 (c : Dev nD) : V m c main_v3 = Uj m c := by
  dsimp only [V, hostOps0]
  after_results_simp
  try dsimp only [Matrix.cons_val]
  rfl
theorem V_main_v4 (c : Dev nD) : V m c main_v4 = bj m c := by
  dsimp only [V, hostOps0]
  after_results_simp
  try dsimp only [Matrix.cons_val]
  rfl
theorem V_main_v5 (c : Dev nD) : V m c main_v5 = (m ((c : Thread nD τ).loc main_arg15)) := by
  dsimp only [V, hostOps0]
  after_results_simp
  try dsimp only [Matrix.cons_val]
  rfl

/-! ## The index maps, decided over the grid -/

theorem hz2 : (![0, 0] : Fin 2 → Nat) = fun _ => 0 := funext fun a => by fin_cases a <;> rfl
theorem hz1 : (![0] : Fin 1 → Nat) = fun _ => 0 := funext fun a => by fin_cases a <;> rfl

theorem idx_rows0 : ∀ t : Fin cfg0.N, win0_0.index t (0 : Fin 2) = t.val ∧ win0_0.index t (1 : Fin 2) = 0 :=
  (by decide +kernel : ∀ t : Fin grid0.N, _)
theorem idx_rows1 : ∀ t : Fin cfg0.N, win0_1.index t (0 : Fin 2) = t.val ∧ win0_1.index t (1 : Fin 2) = 0 :=
  (by decide +kernel : ∀ t : Fin grid0.N, _)
theorem idx_rows2 : ∀ t : Fin cfg0.N, win0_2.index t (0 : Fin 2) = t.val ∧ win0_2.index t (1 : Fin 2) = 0 :=
  (by decide +kernel : ∀ t : Fin grid0.N, _)
theorem idx_rows8 : ∀ t : Fin cfg0.N, win0_8.index t (0 : Fin 2) = t.val ∧ win0_8.index t (1 : Fin 2) = 0 :=
  (by decide +kernel : ∀ t : Fin grid0.N, _)
theorem idx_rows9 : ∀ t : Fin cfg0.N, win0_9.index t (0 : Fin 2) = t.val ∧ win0_9.index t (1 : Fin 2) = 0 :=
  (by decide +kernel : ∀ t : Fin grid0.N, _)
theorem idx_rows10 : ∀ t : Fin cfg0.N, win0_10.index t (0 : Fin 2) = t.val ∧ win0_10.index t (1 : Fin 2) = 0 :=
  (by decide +kernel : ∀ t : Fin grid0.N, _)
theorem idx_whole3 : ∀ t : Fin cfg0.N, win0_3.index t (0 : Fin 2) = 0 ∧ win0_3.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_whole6 : ∀ t : Fin cfg0.N, win0_6.index t (0 : Fin 2) = 0 ∧ win0_6.index t (1 : Fin 2) = 0 :=
  (by decide +kernel : ∀ t : Fin grid0.N, _)
theorem idx_whole5 : ∀ t : Fin cfg0.N, win0_5.index t (0 : Fin 1) = 0 :=
  (by decide +kernel : ∀ t : Fin grid0.N, _)
theorem idx_whole7 : ∀ t : Fin cfg0.N, win0_7.index t (0 : Fin 1) = 0 :=
  (by decide +kernel : ∀ t : Fin grid0.N, _)

/-- Row `p` of point `t`'s block is row 512·t + p of the array. -/
def rowAt (t : Fin cfg0.N) (p : Fin 512) : Fin 8192 :=
  ⟨512 * t.val + p.val, by have h : t.val < grid0.N := t.isLt; rw [N_0] at h; have := p.isLt; omega⟩

/-! ## The staged blocks -/

/-- Window 0's block at point `t` is rows 512·t … 512·t + 511 of argument 0. -/
theorem rows0 (c : Dev nD) (t : Fin cfg0.N) (p : Fin 512) :
    rowOf (iblk m c 0 t : Vec Ideal S512x1024 .f32) p = rowOf (m ((c : Thread nD τ).loc main_arg0)) (rowAt t p) := by
  obtain ⟨e0, e1⟩ := idx_rows0 t
  funext k
  unfold rowOf iblk
  rw [View.read_apply]
  show V m c main_arg0 _ = m ((c : Thread nD τ).loc main_arg0) _
  rw [V_main_arg0]
  refine congrArg _ (funext fun a => Fin.ext ?_)
  match a with
  | ⟨0, _⟩ => show win0_0.index t (0 : Fin 2) * 512 + 1 * p.val = 512 * t.val + p.val; rw [e0]; omega
  | ⟨1, _⟩ => show win0_0.index t (1 : Fin 2) * 1024 + 1 * k.val = k.val; rw [e1]; omega
/-- Window 1's block at point `t` is rows 512·t … 512·t + 511 of argument 1. -/
theorem rows1 (c : Dev nD) (t : Fin cfg0.N) (p : Fin 512) :
    rowOf (iblk m c 1 t : Vec Ideal S512x1024 .f32) p = rowOf (m ((c : Thread nD τ).loc main_arg1)) (rowAt t p) := by
  obtain ⟨e0, e1⟩ := idx_rows1 t
  funext k
  unfold rowOf iblk
  rw [View.read_apply]
  show V m c main_arg1 _ = m ((c : Thread nD τ).loc main_arg1) _
  rw [V_main_arg1]
  refine congrArg _ (funext fun a => Fin.ext ?_)
  match a with
  | ⟨0, _⟩ => show win0_1.index t (0 : Fin 2) * 512 + 1 * p.val = 512 * t.val + p.val; rw [e0]; omega
  | ⟨1, _⟩ => show win0_1.index t (1 : Fin 2) * 1024 + 1 * k.val = k.val; rw [e1]; omega
/-- Window 2's block at point `t` is rows 512·t … 512·t + 511 of argument 2. -/
theorem rows2 (c : Dev nD) (t : Fin cfg0.N) (p : Fin 512) :
    rowOf (iblk m c 2 t : Vec Ideal S512x1024 .f32) p = rowOf (m ((c : Thread nD τ).loc main_arg2)) (rowAt t p) := by
  obtain ⟨e0, e1⟩ := idx_rows2 t
  funext k
  unfold rowOf iblk
  rw [View.read_apply]
  show V m c main_arg2 _ = m ((c : Thread nD τ).loc main_arg2) _
  rw [V_main_arg2]
  refine congrArg _ (funext fun a => Fin.ext ?_)
  match a with
  | ⟨0, _⟩ => show win0_2.index t (0 : Fin 2) * 512 + 1 * p.val = 512 * t.val + p.val; rw [e0]; omega
  | ⟨1, _⟩ => show win0_2.index t (1 : Fin 2) * 1024 + 1 * k.val = k.val; rw [e1]; omega
/-- Window 3 is resident: its block at every point is the whole array. -/
theorem whole3 (c : Dev nD) (t : Fin cfg0.N) : (iblk m c 3 t : Vec Ideal S1024x4096 .bf16) = V m c main_v1 := by
  obtain ⟨e0, e1⟩ := idx_whole3 t
  funext y
  unfold iblk
  rw [View.read_apply]
  show V m c main_v1 (((cfg0.win 3).blk t).view.emb y) = V m c main_v1 y
  refine congrArg (V m c main_v1) (funext fun a => Fin.ext ?_)
  match a with
  | ⟨0, _⟩ => show win0_3.index t (0 : Fin 2) * 1024 + 1 * (y 0).val = (y 0).val; rw [e0]; omega
  | ⟨1, _⟩ => show win0_3.index t (1 : Fin 2) * 4096 + 1 * (y 1).val = (y 1).val; rw [e1]; omega
/-- Window 4 is resident: its block at every point is the whole array. -/
theorem whole4 (c : Dev nD) (t : Fin cfg0.N) : (iblk m c 4 t : Vec Ideal S1024x4096 .bf16) = V m c main_v3 := by
  obtain ⟨e0, e1⟩ := idx_whole4 t
  funext y
  unfold iblk
  rw [View.read_apply]
  show V m c main_v3 (((cfg0.win 4).blk t).view.emb y) = V m c main_v3 y
  refine congrArg (V m c main_v3) (funext fun a => Fin.ext ?_)
  match a with
  | ⟨0, _⟩ => show win0_4.index t (0 : Fin 2) * 1024 + 1 * (y 0).val = (y 0).val; rw [e0]; omega
  | ⟨1, _⟩ => show win0_4.index t (1 : Fin 2) * 4096 + 1 * (y 1).val = (y 1).val; rw [e1]; omega
/-- Window 5 is resident: its block at every point is the whole array. -/
theorem whole5 (c : Dev nD) (t : Fin cfg0.N) : (iblk m c 5 t : Vec Ideal S4096 .f32) = V m c main_v4 := by
  have e0 := idx_whole5 t
  funext y
  unfold iblk
  rw [View.read_apply]
  show V m c main_v4 (((cfg0.win 5).blk t).view.emb y) = V m c main_v4 y
  refine congrArg (V m c main_v4) (funext fun a => Fin.ext ?_)
  match a with
  | ⟨0, _⟩ => show win0_5.index t (0 : Fin 1) * 4096 + 1 * (y 0).val = (y 0).val; rw [e0]; omega
/-- Window 6 is resident: its block at every point is the whole array. -/
theorem whole6 (c : Dev nD) (t : Fin cfg0.N) : (iblk m c 6 t : Vec Ideal S1024x1024 .bf16) = V m c main_v5 := by
  obtain ⟨e0, e1⟩ := idx_whole6 t
  funext y
  unfold iblk
  rw [View.read_apply]
  show V m c main_v5 (((cfg0.win 6).blk t).view.emb y) = V m c main_v5 y
  refine congrArg (V m c main_v5) (funext fun a => Fin.ext ?_)
  match a with
  | ⟨0, _⟩ => show win0_6.index t (0 : Fin 2) * 1024 + 1 * (y 0).val = (y 0).val; rw [e0]; omega
  | ⟨1, _⟩ => show win0_6.index t (1 : Fin 2) * 1024 + 1 * (y 1).val = (y 1).val; rw [e1]; omega
/-- Window 7 is resident: its block at every point is the whole array. -/
theorem whole7 (c : Dev nD) (t : Fin cfg0.N) : (iblk m c 7 t : Vec Ideal S1024 .f32) = V m c main_arg16 := by
  have e0 := idx_whole7 t
  funext y
  unfold iblk
  rw [View.read_apply]
  show V m c main_arg16 (((cfg0.win 7).blk t).view.emb y) = V m c main_arg16 y
  refine congrArg (V m c main_arg16) (funext fun a => Fin.ext ?_)
  match a with
  | ⟨0, _⟩ => show win0_7.index t (0 : Fin 1) * 1024 + 1 * (y 0).val = (y 0).val; rw [e0]; omega

/-! ## What each point writes back -/

/-- Row `p`, column `j` of output window 8's block at point `t` is row 512·t + p, column j of its array. -/
theorem emb8 (c : Dev nD) (t : Fin cfg0.N) (p : Fin 512) (j : Fin 1024) :
    ((cfg0.win 8).blk t).view.emb (ix2 p j) = ix2 (rowAt t p) j := by
  obtain ⟨e0, e1⟩ := idx_rows8 t
  refine funext fun a => Fin.ext ?_
  match a with
  | ⟨0, _⟩ => show win0_8.index t (0 : Fin 2) * 512 + 1 * p.val = 512 * t.val + p.val; rw [e0]; omega
  | ⟨1, _⟩ => show win0_8.index t (1 : Fin 2) * 1024 + 1 * j.val = j.val; rw [e1]; omega
/-- Row `p`, column `j` of output window 9's block at point `t` is row 512·t + p, column j of its array. -/
theorem emb9 (c : Dev nD) (t : Fin cfg0.N) (p : Fin 512) (j : Fin 1024) :
    ((cfg0.win 9).blk t).view.emb (ix2 p j) = ix2 (rowAt t p) j := by
  obtain ⟨e0, e1⟩ := idx_rows9 t
  refine funext fun a => Fin.ext ?_
  match a with
  | ⟨0, _⟩ => show win0_9.index t (0 : Fin 2) * 512 + 1 * p.val = 512 * t.val + p.val; rw [e0]; omega
  | ⟨1, _⟩ => show win0_9.index t (1 : Fin 2) * 1024 + 1 * j.val = j.val; rw [e1]; omega
/-- Row `p`, column `j` of output window 10's block at point `t` is row 512·t + p, column j of its array. -/
theorem emb10 (c : Dev nD) (t : Fin cfg0.N) (p : Fin 512) (j : Fin 1024) :
    ((cfg0.win 10).blk t).view.emb (ix2 p j) = ix2 (rowAt t p) j := by
  obtain ⟨e0, e1⟩ := idx_rows10 t
  refine funext fun a => Fin.ext ?_
  match a with
  | ⟨0, _⟩ => show win0_10.index t (0 : Fin 2) * 512 + 1 * p.val = 512 * t.val + p.val; rw [e0]; omega
  | ⟨1, _⟩ => show win0_10.index t (1 : Fin 2) * 1024 + 1 * j.val = j.val; rw [e1]; omega

/-- What point `t` writes back through window 8 is block `t` of the specification's array. -/
theorem flushed8_eq (c : Dev nD) (t : Fin cfg0.N) :
    (dats m 0 c).flushed 8 t = ((cfg0.win 8).blk t).view.read (Elt Ideal) (outArr (m ((c : Thread nD τ).loc main_arg0)) (m ((c : Thread nD τ).loc main_arg1)) (m ((c : Thread nD τ).loc main_arg2)) (Wj m c) (Uj m c) (bj m c) (m ((c : Thread nD τ).loc main_arg15)) (m ((c : Thread nD τ).loc main_arg16))) := by
  show (cfg0.win 8).cut (grid0.coords t) ((dats m 0 c).after 8 t) = _
  rw [after0_8]
  unfold out0_8
  rw [View.canon_unit_zero hz2]
  simp only [View.ld_unit_zero (S := S512x1024) hz2, View.ld_unit_zero (S := S1024x4096) hz2, View.ld_unit_zero (S := S1024x1024) hz2,
    View.ld_unit_zero (S := S4096) hz1, View.ld_unit_zero (S := S1024) hz1]
  funext y
  obtain ⟨p, j, rfl⟩ : ∃ (p : Fin 512) (j : Fin 1024), y = ix2 p j := ⟨y 0, y 1, eq_ix2 y⟩
  show (k0_pay1 (F := Ideal) (k0_pay5 (iblk m c 0 t) (iblk m c 1 t) (iblk m c 2 t) (iblk m c 3 t) (iblk m c 4 t) (iblk m c 5 t) (iblk m c 6 t) (iblk m c 7 t)) (k0_pay6 (iblk m c 0 t) (iblk m c 1 t) (iblk m c 2 t) (iblk m c 3 t) (iblk m c 4 t) (iblk m c 5 t) (iblk m c 6 t) (iblk m c 7 t))) (ix2 p j) = _
  rw [out_apply]
  show _ = (outArr (m ((c : Thread nD τ).loc main_arg0)) (m ((c : Thread nD τ).loc main_arg1)) (m ((c : Thread nD τ).loc main_arg2)) (Wj m c) (Uj m c) (bj m c) (m ((c : Thread nD τ).loc main_arg15)) (m ((c : Thread nD τ).loc main_arg16))) (((cfg0.win 8).blk t).view.emb (ix2 p j))
  rw [emb8 c t p j]
  unfold outArr outAt
  rw [rows0 m c t p, rows1 m c t p, rows2 m c t p, whole3, whole4, whole5, whole6, whole7, V_main_v1, V_main_v3, V_main_v4, V_main_v5, V_main_arg16]
/-- What point `t` writes back through window 9 is block `t` of the specification's array. -/
theorem flushed9_eq (c : Dev nD) (t : Fin cfg0.N) :
    (dats m 0 c).flushed 9 t = ((cfg0.win 9).blk t).view.read (Elt Ideal) (hidArr (m ((c : Thread nD τ).loc main_arg0)) (m ((c : Thread nD τ).loc main_arg1)) (m ((c : Thread nD τ).loc main_arg2)) (Wj m c) (Uj m c) (bj m c)) := by
  show (cfg0.win 9).cut (grid0.coords t) ((dats m 0 c).after 9 t) = _
  rw [after0_9]
  unfold out0_9
  rw [View.canon_unit_zero hz2]
  simp only [View.ld_unit_zero (S := S512x1024) hz2, View.ld_unit_zero (S := S1024x4096) hz2, View.ld_unit_zero (S := S1024x1024) hz2,
    View.ld_unit_zero (S := S4096) hz1, View.ld_unit_zero (S := S1024) hz1]
  funext y
  obtain ⟨p, j, rfl⟩ : ∃ (p : Fin 512) (j : Fin 1024), y = ix2 p j := ⟨y 0, y 1, eq_ix2 y⟩
  show (k0_pay4 (F := Ideal) (iblk m c 0 t) (iblk m c 1 t) (iblk m c 2 t) (iblk m c 3 t) (iblk m c 4 t) (iblk m c 5 t)) (ix2 p j) = _
  rw [hid_apply]
  show _ = (hidArr (m ((c : Thread nD τ).loc main_arg0)) (m ((c : Thread nD τ).loc main_arg1)) (m ((c : Thread nD τ).loc main_arg2)) (Wj m c) (Uj m c) (bj m c)) (((cfg0.win 9).blk t).view.emb (ix2 p j))
  rw [emb9 c t p j]
  unfold hidArr hidAt
  rw [rows0 m c t p, rows1 m c t p, rows2 m c t p, whole3, whole4, whole5, V_main_v1, V_main_v3, V_main_v4]
/-- What point `t` writes back through window 10 is block `t` of the specification's array. -/
theorem flushed10_eq (c : Dev nD) (t : Fin cfg0.N) :
    (dats m 0 c).flushed 10 t = ((cfg0.win 10).blk t).view.read (Elt Ideal) (cellArr (m ((c : Thread nD τ).loc main_arg0)) (m ((c : Thread nD τ).loc main_arg1)) (m ((c : Thread nD τ).loc main_arg2)) (Wj m c) (Uj m c) (bj m c)) := by
  show (cfg0.win 10).cut (grid0.coords t) ((dats m 0 c).after 10 t) = _
  rw [after0_10]
  unfold out0_10
  rw [View.canon_unit_zero hz2]
  simp only [View.ld_unit_zero (S := S512x1024) hz2, View.ld_unit_zero (S := S1024x4096) hz2, View.ld_unit_zero (S := S1024x1024) hz2,
    View.ld_unit_zero (S := S4096) hz1, View.ld_unit_zero (S := S1024) hz1]
  funext y
  obtain ⟨p, j, rfl⟩ : ∃ (p : Fin 512) (j : Fin 1024), y = ix2 p j := ⟨y 0, y 1, eq_ix2 y⟩
  show (k0_pay3 (F := Ideal) (iblk m c 0 t) (iblk m c 1 t) (iblk m c 2 t) (iblk m c 3 t) (iblk m c 4 t) (iblk m c 5 t)) (ix2 p j) = _
  rw [cell_apply]
  show _ = (cellArr (m ((c : Thread nD τ).loc main_arg0)) (m ((c : Thread nD τ).loc main_arg1)) (m ((c : Thread nD τ).loc main_arg2)) (Wj m c) (Uj m c) (bj m c)) (((cfg0.win 10).blk t).view.emb (ix2 p j))
  rw [emb10 c t p j]
  unfold cellArr cellAt
  rw [rows0 m c t p, rows1 m c t p, rows2 m c t p, whole3, whole4, whole5, V_main_v1, V_main_v3, V_main_v4]

/-! ## The sixteen blocks cover each output array -/

/-- An index is in point `t`'s block of window 8 iff each coordinate is in the block's range on its axis. -/
theorem mem_blk8 (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v6_0).slice (win0_8.rect t)).set ↔ _
  rw [View.set_slice_whole, Rect.mem_set_unit]
  exact Iff.rfl

/-- Every index of window 8's array lies in the block of the point that holds its row. -/
theorem cover8 (c : Dev nD) (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  obtain ⟨t0, ht0⟩ : ∃ t0 : Fin cfg0.N, t0.val = (i 0).val / 512 :=
    ⟨⟨(i 0).val / 512, by show (i 0).val / 512 < grid0.N; rw [N_0]; omega⟩, rfl⟩
  obtain ⟨e0, e1⟩ := idx_rows8 t0
  refine ⟨t0, flush0_8 t0, ?_⟩
  rw [mem_blk8]
  intro a
  match a with
  | ⟨0, _⟩ => show win0_8.index t0 (0 : Fin 2) * 512 ≤ (i 0).val ∧ (i 0).val < win0_8.index t0 (0 : Fin 2) * 512 + 512; rw [e0, ht0]; omega
  | ⟨1, _⟩ => show win0_8.index t0 (1 : Fin 2) * 1024 ≤ (i 1).val ∧ (i 1).val < win0_8.index t0 (1 : Fin 2) * 1024 + 1024; rw [e1]; omega
/-- An index is in point `t`'s block of window 9 iff each coordinate is in the block's range on its axis. -/
theorem mem_blk9 (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v6_1).slice (win0_9.rect t)).set ↔ _
  rw [View.set_slice_whole, Rect.mem_set_unit]
  exact Iff.rfl

/-- Every index of window 9's array lies in the block of the point that holds its row. -/
theorem cover9 (c : Dev nD) (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  obtain ⟨t0, ht0⟩ : ∃ t0 : Fin cfg0.N, t0.val = (i 0).val / 512 :=
    ⟨⟨(i 0).val / 512, by show (i 0).val / 512 < grid0.N; rw [N_0]; omega⟩, rfl⟩
  obtain ⟨e0, e1⟩ := idx_rows9 t0
  refine ⟨t0, flush0_9 t0, ?_⟩
  rw [mem_blk9]
  intro a
  match a with
  | ⟨0, _⟩ => show win0_9.index t0 (0 : Fin 2) * 512 ≤ (i 0).val ∧ (i 0).val < win0_9.index t0 (0 : Fin 2) * 512 + 512; rw [e0, ht0]; omega
  | ⟨1, _⟩ => show win0_9.index t0 (1 : Fin 2) * 1024 ≤ (i 1).val ∧ (i 1).val < win0_9.index t0 (1 : Fin 2) * 1024 + 1024; rw [e1]; omega
/-- An index is in point `t`'s block of window 10 iff each coordinate is in the block's range on its axis. -/
theorem mem_blk10 (t : Fin cfg0.N) (i : S8192x1024.Idx) :
    i ∈ ((cfg0.win 10).blk t).view.set ↔ ∀ a : Fin 2, win0_10.index t a * S512x1024.size a ≤ (i a).val ∧ (i a).val < win0_10.index t a * S512x1024.size a + S512x1024.size a := by
  show i ∈ ((View.whole main_v6_2).slice (win0_10.rect t)).set ↔ _
  rw [View.set_slice_whole, Rect.mem_set_unit]
  exact Iff.rfl

/-- Every index of window 10's array lies in the block of the point that holds its row. -/
theorem cover10 (c : Dev nD) (i : S8192x1024.Idx) : ∃ t : Fin cfg0.N, (cfg0.win 10).flush t = true ∧ i ∈ ((cfg0.win 10).blk t).view.set := by
  have hi0 : (i 0).val < 8192 := (i 0).isLt
  have hi1 : (i 1).val < 1024 := (i 1).isLt
  obtain ⟨t0, ht0⟩ : ∃ t0 : Fin cfg0.N, t0.val = (i 0).val / 512 :=
    ⟨⟨(i 0).val / 512, by show (i 0).val / 512 < grid0.N; rw [N_0]; omega⟩, rfl⟩
  obtain ⟨e0, e1⟩ := idx_rows10 t0
  refine ⟨t0, flush0_10 t0, ?_⟩
  rw [mem_blk10]
  intro a
  match a with
  | ⟨0, _⟩ => show win0_10.index t0 (0 : Fin 2) * 512 ≤ (i 0).val ∧ (i 0).val < win0_10.index t0 (0 : Fin 2) * 512 + 512; rw [e0, ht0]; omega
  | ⟨1, _⟩ => show win0_10.index t0 (1 : Fin 2) * 1024 ≤ (i 1).val ∧ (i 1).val < win0_10.index t0 (1 : Fin 2) * 1024 + 1024; rw [e1]; omega

/-! ## The arrays after the run -/

theorem final8 (c : Dev nD) : (dats m 0 c).arrAt 8 cfg0.N = outArr (m ((c : Thread nD τ).loc main_arg0)) (m ((c : Thread nD τ).loc main_arg1)) (m ((c : Thread nD τ).loc main_arg2)) (Wj m c) (Uj m c) (bj m c) (m ((c : Thread nD τ).loc main_arg15)) (m ((c : Thread nD τ).loc main_arg16)) :=
  (dats m 0 c).arrAt_eq_of_cover 8 _ (fun t _ => flushed8_eq m c t) (cover8 c)
theorem final9 (c : Dev nD) : (dats m 0 c).arrAt 9 cfg0.N = hidArr (m ((c : Thread nD τ).loc main_arg0)) (m ((c : Thread nD τ).loc main_arg1)) (m ((c : Thread nD τ).loc main_arg2)) (Wj m c) (Uj m c) (bj m c) :=
  (dats m 0 c).arrAt_eq_of_cover 9 _ (fun t _ => flushed9_eq m c t) (cover9 c)
theorem final10 (c : Dev nD) : (dats m 0 c).arrAt 10 cfg0.N = cellArr (m ((c : Thread nD τ).loc main_arg0)) (m ((c : Thread nD τ).loc main_arg1)) (m ((c : Thread nD τ).loc main_arg2)) (Wj m c) (Uj m c) (bj m c) :=
  (dats m 0 c).arrAt_eq_of_cover 10 _ (fun t _ => flushed10_eq m c t) (cover10 c)

/-- The run, read: the three results at the specification's arrays, every argument as launched. -/
theorem run : θ_run defs (onTc (τ := τ) (main (F := Ideal))) ⟨m, fun _ => 0, ρ⟩ fun r => ∀ c : Dev nD,
      r.2.mem ((c.tc : Thread nD τ).loc main_v6_0) = outArr (m ((c : Thread nD τ).loc main_arg0)) (m ((c : Thread nD τ).loc main_arg1)) (m ((c : Thread nD τ).loc main_arg2)) (Wj m c) (Uj m c) (bj m c) (m ((c : Thread nD τ).loc main_arg15)) (m ((c : Thread nD τ).loc main_arg16))
      ∧ r.2.mem ((c.tc : Thread nD τ).loc main_v6_1) = hidArr (m ((c : Thread nD τ).loc main_arg0)) (m ((c : Thread nD τ).loc main_arg1)) (m ((c : Thread nD τ).loc main_arg2)) (Wj m c) (Uj m c) (bj m c)
      ∧ r.2.mem ((c.tc : Thread nD τ).loc main_v6_2) = cellArr (m ((c : Thread nD τ).loc main_arg0)) (m ((c : Thread nD τ).loc main_arg1)) (m ((c : Thread nD τ).loc main_arg2)) (Wj m c) (Uj m c) (bj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c => ⟨((h c).1 8).trans (final8 m c), ((h c).1 9).trans (final9 m c), ((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).1 7).trans (((dats m 0 c).arrAt_in 7 rfl _).trans ((A_eq m c 7).trans (V_main_arg16 m c)))⟩)
    (run_main m ρ)

end Cert.KernelIdeal.LstmValue

end
-- ==== Proof.RefEval.lean ====
/-
  What the reference's operations leave in its three result buffers, as nested stages of the launch contents: the
  gate pre-activations x·[W_f|W_i|W_c|W_o] + h·[U_f|U_i|U_c|U_o] + [b_f|b_i|b_c|b_o]; the four column blocks
  through the sigmoid 1 / (1 + exp(-g)) or tanh; the new cell f·c + i·c~; the new hidden state o·tanh(cell); the
  logits hidden·W_h + b_h; and the log-softmax of the logits along each row.
-/
import proofs.«145524_j53188874993812_1_alg».proof.Proof.RefRun

noncomputable section

namespace Cert.ReferenceIdeal.RefEval

open Cert.ReferenceIdeal Cert.ReferenceIdeal.Gen Cert.ReferenceIdeal.RefRun
open Idealize.ShloMosaic Idealize.ShloMosaic.TcCoe Idealize.SL.Sem Idealize.ShloMosaic.StableHlo

variable {F : FTy → Type} [FloatOps F]

/-- Four [1024,1024] matrices side by side along the gate axis. -/
def joinCols (a b c d : (⟨S1024x1024, .f32⟩ : BufTy).Contents (Elt F)) : (⟨S1024x4096, .f32⟩ : BufTy).Contents (Elt F) :=
  concatenate S1024x4096 1 [⟨S1024x1024, a⟩, ⟨S1024x1024, b⟩, ⟨S1024x1024, c⟩, ⟨S1024x1024, d⟩] concatenates_S1024x1024_S1024x1024_S1024x1024_S1024x1024_S1024x4096_d1
/-- Four bias vectors end to end. -/
def joinBias (a b c d : (⟨S1024, .f32⟩ : BufTy).Contents (Elt F)) : (⟨S4096, .f32⟩ : BufTy).Contents (Elt F) :=
  concatenate S4096 0 [⟨S1024, a⟩, ⟨S1024, b⟩, ⟨S1024, c⟩, ⟨S1024, d⟩] concatenates_S1024_S1024_S1024_S1024_S4096_d0

/-- The gate pre-activations of every row. -/
def gatesT (x h : (⟨S8192x1024, .f32⟩ : BufTy).Contents (Elt F)) (W U : (⟨S1024x4096, .f32⟩ : BufTy).Contents (Elt F)) (b : (⟨S4096, .f32⟩ : BufTy).Contents (Elt F)) : (⟨S8192x4096, .f32⟩ : BufTy).Contents (Elt F) :=
  addf (addf (Host.dotGeneral dot_S8192x1024_S1024x4096_S8192x4096_1_0_0_1_n_n none x W)
      (Host.dotGeneral dot_S8192x1024_S1024x4096_S8192x4096_1_0_0_1_n_n none h U))
    (broadcastInDim S8192x4096 ![0, 1] bcast_S1x4096_S8192x4096_0_1 (broadcastInDim S1x4096 ![1] bcast_S4096_S1x4096_1 b))

/-- The all-ones array the sigmoid is spelt with. -/
def onesT : (⟨S8192x1024, .f32⟩ : BufTy).Contents (Elt F) := broadcastInDim S8192x1024 ![] bcast_S_S8192x1024 (constant S_ .f32 0x3F800000#32)
/-- The sigmoid as the reference spells it. -/
def sigT (g : (⟨S8192x1024, .f32⟩ : BufTy).Contents (Elt F)) : (⟨S8192x1024, .f32⟩ : BufTy).Contents (Elt F) := Host.divf onesT (addf onesT (Host.exp (Host.negf g)))

/-- The new cell state. -/
def cellT (g : (⟨S8192x4096, .f32⟩ : BufTy).Contents (Elt F)) (c : (⟨S8192x1024, .f32⟩ : BufTy).Contents (Elt F)) : (⟨S8192x1024, .f32⟩ : BufTy).Contents (Elt F) :=
  addf (mulf (sigT (extractStridedSlice S8192x1024 ![0, 0] g slices_S8192x4096_S8192x1024_0_0)) c)
    (mulf (sigT (extractStridedSlice S8192x1024 ![0, 1024] g slices_S8192x4096_S8192x1024_0_1024))
      (Host.tanh (extractStridedSlice S8192x1024 ![0, 2048] g slices_S8192x4096_S8192x1024_0_2048)))
/-- The new hidden state. -/
def hidT (g : (⟨S8192x4096, .f32⟩ : BufTy).Contents (Elt F)) (c : (⟨S8192x1024, .f32⟩ : BufTy).Contents (Elt F)) : (⟨S8192x1024, .f32⟩ : BufTy).Contents (Elt F) :=
  mulf (sigT (extractStridedSlice S8192x1024 ![0, 3072] g slices_S8192x4096_S8192x1024_0_3072)) (Host.tanh (cellT g c))
/-- The logits. -/
def logitsT (hd : (⟨S8192x1024, .f32⟩ : BufTy).Contents (Elt F)) (P : (⟨S1024x1024, .f32⟩ : BufTy).Contents (Elt F)) (d : (⟨S1024, .f32⟩ : BufTy).Contents (Elt F)) : (⟨S8192x1024, .f32⟩ : BufTy).Contents (Elt F) :=
  addf (Host.dotGeneral dot_S8192x1024_S1024x1024_S8192x1024_1_0_0_1_n_n none hd P)
    (broadcastInDim S8192x1024 ![0, 1] bcast_S1x1024_S8192x1024_0_1 (broadcastInDim S1x1024 ![1] bcast_S1024_S1x1024_1 d))
/-- Each row's maximum (from minus infinity, and once more against minus infinity). -/
def rowMaxT (l : (⟨S8192x1024, .f32⟩ : BufTy).Contents (Elt F)) : (⟨S8192, .f32⟩ : BufTy).Contents (Elt F) :=
  maximumf (broadcastInDim S8192 ![] bcast_S_S8192 (constant S_ .f32 0xFF800000#32))
    (Host.reduce FloatOps.maximumf l (constant S_ .f32 0xFF800000#32) reducesTo_S8192x1024_S8192_d1 h_S_)
/-- The logits less their row maximum. -/
def shiftedT (l : (⟨S8192x1024, .f32⟩ : BufTy).Contents (Elt F)) : (⟨S8192x1024, .f32⟩ : BufTy).Contents (Elt F) :=
  subf l (broadcastInDim S8192x1024 ![0, 1] bcast_S8192x1_S8192x1024_0_1 (broadcastInDim S8192x1 ![0] bcast_S8192_S8192x1_0 (rowMaxT l)))
/-- The log-softmax of each row. -/
def lsmT (l : (⟨S8192x1024, .f32⟩ : BufTy).Contents (Elt F)) : (⟨S8192x1024, .f32⟩ : BufTy).Contents (Elt F) :=
  subf (shiftedT l) (broadcastInDim S8192x1024 ![0, 1] bcast_S8192x1_S8192x1024_0_1
    (Host.log (broadcastInDim S8192x1 ![0] bcast_S8192_S8192x1_0
      (Host.reduceAdd (Host.exp (shiftedT l)) (constant S_ .f32 0x00000000#32) reducesTo_S8192x1024_S8192_d1 h_S_))))

/-- A value carried into a buffer's own type and back is itself. -/
theorem ofBuf_toBuf {T : BufTy} (x : TRef sig T) (v : T.Contents (Elt F)) : x.ofBuf (x.toBuf v) = v := by
  obtain ⟨r, h, h2, h3⟩ := x
  subst h
  rfl

variable (m : (ℓ : Loc nD τ sig) → Buf (Elt F) ℓ) (c : Dev nD)

/-- The gate pre-activations of the launch contents. -/
abbrev gates0 : (⟨S8192x4096, .f32⟩ : BufTy).Contents (Elt F) :=
  gatesT (launchContents m c (Proc.devRef .tc main_arg0)) (launchContents m c (Proc.devRef .tc main_arg1)) (joinCols (launchContents m c (Proc.devRef .tc main_arg3)) (launchContents m c (Proc.devRef .tc main_arg6)) (launchContents m c (Proc.devRef .tc main_arg9)) (launchContents m c (Proc.devRef .tc main_arg12)))
    (joinCols (launchContents m c (Proc.devRef .tc main_arg4)) (launchContents m c (Proc.devRef .tc main_arg7)) (launchContents m c (Proc.devRef .tc main_arg10)) (launchContents m c (Proc.devRef .tc main_arg13))) (joinBias (launchContents m c (Proc.devRef .tc main_arg5)) (launchContents m c (Proc.devRef .tc main_arg8)) (launchContents m c (Proc.devRef .tc main_arg11)) (launchContents m c (Proc.devRef .tc main_arg14)))

set_option maxRecDepth 16384 in
set_option maxHeartbeats 4000000 in
/-- The third result, the new cell state. -/
theorem eval_cell : after (ops (F := F)) (launchContents m c) (Proc.devRef .tc main_v34) = cellT (gates0 m c) (launchContents m c (Proc.devRef .tc main_arg2)) := by
  after_results_simp
  dsimp only [Matrix.cons_val]
  try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)]
  try after_results_simp
  try dsimp only [Matrix.cons_val]
  try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)]
  try after_results_simp
  unfold gates0 cellT sigT onesT gatesT joinCols joinBias
  rfl

set_option maxRecDepth 16384 in
set_option maxHeartbeats 4000000 in
/-- The second result, the new hidden state. -/
theorem eval_hid : after (ops (F := F)) (launchContents m c) (Proc.devRef .tc main_v36) = hidT (gates0 m c) (launchContents m c (Proc.devRef .tc main_arg2)) := by
  after_results_simp
  dsimp only [Matrix.cons_val]
  try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)]
  try after_results_simp
  try dsimp only [Matrix.cons_val]
  try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)]
  try after_results_simp
  unfold gates0 hidT cellT sigT onesT gatesT joinCols joinBias
  rfl

set_option maxRecDepth 16384 in
set_option maxHeartbeats 4000000 in
/-- The first result, the log-softmax of the logits. -/
theorem eval_out : after (ops (F := F)) (launchContents m c) (Proc.devRef .tc main_v41) = lsmT (logitsT (hidT (gates0 m c) (launchContents m c (Proc.devRef .tc main_arg2))) (launchContents m c (Proc.devRef .tc main_arg15)) (launchContents m c (Proc.devRef .tc main_arg16))) := by
  after_results_simp
  dsimp only [Matrix.cons_val]
  try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)]
  try after_results_simp
  try dsimp only [Matrix.cons_val]
  try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)]
  try after_results_simp
  simp only [ofBuf_toBuf]
  unfold gates0 lsmT shiftedT rowMaxT logitsT hidT cellT sigT onesT gatesT joinCols joinBias
  rfl

end Cert.ReferenceIdeal.RefEval

end
-- ==== Proof.RefIndex.lean ====
/-
  The reference's stages read at an index, at the ideal instance: each is the row function of the specification
  applied to the rows of its operands. The products are sums over the contracted coordinate, the bias rows are
  constant down the rows, a column block of the gates is the gates at the shifted column, the row maximum is the fold
  of max from minus infinity (taken once more against minus infinity, which changes nothing), and the row sum of
  exponentials starts from zero.
-/
import proofs.«145524_j53188874993812_1_alg».proof.Proof.RefEval
import proofs.«145524_j53188874993812_1_alg».proof.Proof.LstmSpec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefIndex

open Cert.ReferenceIdeal Cert.ReferenceIdeal.Gen Cert.ReferenceIdeal.RefEval Cert.LstmSpec
open Idealize.ShloMosaic Idealize.ShloMosaic.TcCoe Idealize.ShloMosaic.ValueIdx

theorem gateDot_l0 (i : S8192x4096.Idx) (q : dot_S8192x1024_S1024x4096_S8192x4096_1_0_0_1_n_n.contr.Idx) : (dot_S8192x1024_S1024x4096_S8192x4096_1_0_0_1_n_n.lhsIdx i q 0).val = (i 0).val := by
  unfold DotDims.lhsIdx
  rw [dif_neg (show ¬(0 : Fin S8192x1024.rank) ∈ dot_S8192x1024_S1024x4096_S8192x4096_1_0_0_1_n_n.lhsBatch by decide), dif_pos (show (0 : Fin S8192x1024.rank) ∈ dot_S8192x1024_S1024x4096_S8192x4096_1_0_0_1_n_n.lhsNonContracting by decide)]
  rfl
theorem gateDot_r1 (i : S8192x4096.Idx) (q : dot_S8192x1024_S1024x4096_S8192x4096_1_0_0_1_n_n.contr.Idx) : (dot_S8192x1024_S1024x4096_S8192x4096_1_0_0_1_n_n.rhsIdx i q 1).val = (i 1).val := by
  unfold DotDims.rhsIdx
  rw [dif_neg (show ¬(1 : Fin S1024x4096.rank) ∈ dot_S8192x1024_S1024x4096_S8192x4096_1_0_0_1_n_n.rhsBatch by decide), dif_pos (show (1 : Fin S1024x4096.rank) ∈ dot_S8192x1024_S1024x4096_S8192x4096_1_0_0_1_n_n.rhsNonContracting by decide)]
  rfl
/-- The product at (r, q) is the sum over k of the left operand's row r times the right operand's column q. -/
theorem gateDot (X : S8192x1024.Idx → EReal) (W : S1024x4096.Idx → EReal) (r : Fin 8192) (q : Fin 4096) :
    Host.dotGeneral (F := Ideal) (φ₁ := .f32) (φ₂ := .f32) dot_S8192x1024_S1024x4096_S8192x4096_1_0_0_1_n_n none X W (ix2 r q) = ∑ k : Fin 1024, X (ix2 r k) * W (ix2 k q) := by
  simp only [Host.dotGeneral]
  rw [Ideal.dotGeneral_apply, ← Equiv.sum_comp (ValueIdx.contrEquiv1 dot_S8192x1024_S1024x4096_S8192x4096_1_0_0_1_n_n 1024 rfl rfl).symm]
  refine Finset.sum_congr rfl fun k _ => ?_
  have hk := ValueIdx.contrEquiv1_symm_val dot_S8192x1024_S1024x4096_S8192x4096_1_0_0_1_n_n 1024 rfl rfl k
  have el : dot_S8192x1024_S1024x4096_S8192x4096_1_0_0_1_n_n.lhsIdx (ix2 r q) ((ValueIdx.contrEquiv1 dot_S8192x1024_S1024x4096_S8192x4096_1_0_0_1_n_n 1024 rfl rfl).symm k) = ix2 r k := funext fun a => Fin.ext (by
    match a with
    | ⟨0, _⟩ => exact gateDot_l0 _ _
    | ⟨1, _⟩ => exact (dot_S8192x1024_S1024x4096_S8192x4096_1_0_0_1_n_n.lhsIdx_val_of_single rfl _ _).trans hk)
  have er : dot_S8192x1024_S1024x4096_S8192x4096_1_0_0_1_n_n.rhsIdx (ix2 r q) ((ValueIdx.contrEquiv1 dot_S8192x1024_S1024x4096_S8192x4096_1_0_0_1_n_n 1024 rfl rfl).symm k) = ix2 k q := funext fun a => Fin.ext (by
    match a with
    | ⟨0, _⟩ => exact (dot_S8192x1024_S1024x4096_S8192x4096_1_0_0_1_n_n.rhsIdx_val_of_single rfl _ _).trans hk
    | ⟨1, _⟩ => exact gateDot_r1 _ _)
  rw [el, er]

theorem outDot_l0 (i : S8192x1024.Idx) (q : dot_S8192x1024_S1024x1024_S8192x1024_1_0_0_1_n_n.contr.Idx) : (dot_S8192x1024_S1024x1024_S8192x1024_1_0_0_1_n_n.lhsIdx i q 0).val = (i 0).val := by
  unfold DotDims.lhsIdx
  rw [dif_neg (show ¬(0 : Fin S8192x1024.rank) ∈ dot_S8192x1024_S1024x1024_S8192x1024_1_0_0_1_n_n.lhsBatch by decide), dif_pos (show (0 : Fin S8192x1024.rank) ∈ dot_S8192x1024_S1024x1024_S8192x1024_1_0_0_1_n_n.lhsNonContracting by decide)]
  rfl
theorem outDot_r1 (i : S8192x1024.Idx) (q : dot_S8192x1024_S1024x1024_S8192x1024_1_0_0_1_n_n.contr.Idx) : (dot_S8192x1024_S1024x1024_S8192x1024_1_0_0_1_n_n.rhsIdx i q 1).val = (i 1).val := by
  unfold DotDims.rhsIdx
  rw [dif_neg (show ¬(1 : Fin S1024x1024.rank) ∈ dot_S8192x1024_S1024x1024_S8192x1024_1_0_0_1_n_n.rhsBatch by decide), dif_pos (show (1 : Fin S1024x1024.rank) ∈ dot_S8192x1024_S1024x1024_S8192x1024_1_0_0_1_n_n.rhsNonContracting by decide)]
  rfl
/-- The product at (r, q) is the sum over k of the left operand's row r times the right operand's column q. -/
theorem outDot (X : S8192x1024.Idx → EReal) (W : S1024x1024.Idx → EReal) (r : Fin 8192) (q : Fin 1024) :
    Host.dotGeneral (F := Ideal) (φ₁ := .f32) (φ₂ := .f32) dot_S8192x1024_S1024x1024_S8192x1024_1_0_0_1_n_n none X W (ix2 r q) = ∑ k : Fin 1024, X (ix2 r k) * W (ix2 k q) := by
  simp only [Host.dotGeneral]
  rw [Ideal.dotGeneral_apply, ← Equiv.sum_comp (ValueIdx.contrEquiv1 dot_S8192x1024_S1024x1024_S8192x1024_1_0_0_1_n_n 1024 rfl rfl).symm]
  refine Finset.sum_congr rfl fun k _ => ?_
  have hk := ValueIdx.contrEquiv1_symm_val dot_S8192x1024_S1024x1024_S8192x1024_1_0_0_1_n_n 1024 rfl rfl k
  have el : dot_S8192x1024_S1024x1024_S8192x1024_1_0_0_1_n_n.lhsIdx (ix2 r q) ((ValueIdx.contrEquiv1 dot_S8192x1024_S1024x1024_S8192x1024_1_0_0_1_n_n 1024 rfl rfl).symm k) = ix2 r k := funext fun a => Fin.ext (by
    match a with
    | ⟨0, _⟩ => exact outDot_l0 _ _
    | ⟨1, _⟩ => exact (dot_S8192x1024_S1024x1024_S8192x1024_1_0_0_1_n_n.lhsIdx_val_of_single rfl _ _).trans hk)
  have er : dot_S8192x1024_S1024x1024_S8192x1024_1_0_0_1_n_n.rhsIdx (ix2 r q) ((ValueIdx.contrEquiv1 dot_S8192x1024_S1024x1024_S8192x1024_1_0_0_1_n_n 1024 rfl rfl).symm k) = ix2 k q := funext fun a => Fin.ext (by
    match a with
    | ⟨0, _⟩ => exact (dot_S8192x1024_S1024x1024_S8192x1024_1_0_0_1_n_n.rhsIdx_val_of_single rfl _ _).trans hk
    | ⟨1, _⟩ => exact outDot_r1 _ _)
  rw [el, er]

/-- The joined bias, spread down the rows, reads the bias at the column. -/
theorem biasRow (b : S4096.Idx → EReal) (r : Fin 8192) (q : Fin 4096) :
    broadcastInDim S8192x4096 ![0, 1] bcast_S1x4096_S8192x4096_0_1 (broadcastInDim S1x4096 ![1] bcast_S4096_S1x4096_1 b) (ix2 r q) = b (ix1 q) :=
  (broadcastInDim_apply _ bcast_S1x4096_S8192x4096_0_1 _ (ix2 r q) (ix2 (0 : Fin 1) q) (fun a => match a with
    | ⟨0, _⟩ => by show 0 = if (1 : Nat) = 1 then 0 else r.val; rw [if_pos rfl]
    | ⟨1, _⟩ => by show q.val = if (4096 : Nat) = 1 then 0 else q.val; rw [if_neg (by decide)])).trans
  (broadcastInDim_apply _ bcast_S4096_S1x4096_1 b (ix2 (0 : Fin 1) q) (ix1 q) (fun a => match a with
    | ⟨0, _⟩ => by show q.val = if (4096 : Nat) = 1 then 0 else q.val; rw [if_neg (by decide)]))

/-- The read-out bias likewise. -/
theorem outBiasRow (d : S1024.Idx → EReal) (r : Fin 8192) (j : Fin 1024) :
    broadcastInDim S8192x1024 ![0, 1] bcast_S1x1024_S8192x1024_0_1 (broadcastInDim S1x1024 ![1] bcast_S1024_S1x1024_1 d) (ix2 r j) = d (ix1 j) :=
  (broadcastInDim_apply _ bcast_S1x1024_S8192x1024_0_1 _ (ix2 r j) (ix2 (0 : Fin 1) j) (fun a => match a with
    | ⟨0, _⟩ => by show 0 = if (1 : Nat) = 1 then 0 else r.val; rw [if_pos rfl]
    | ⟨1, _⟩ => by show j.val = if (1024 : Nat) = 1 then 0 else j.val; rw [if_neg (by decide)])).trans
  (broadcastInDim_apply _ bcast_S1024_S1x1024_1 d (ix2 (0 : Fin 1) j) (ix1 j) (fun a => match a with
    | ⟨0, _⟩ => by show j.val = if (1024 : Nat) = 1 then 0 else j.val; rw [if_neg (by decide)]))

/-- A per-row value spread along the row reads the row's value. -/
theorem rowSpread (v : S8192.Idx → EReal) (r : Fin 8192) (j : Fin 1024) :
    broadcastInDim S8192x1024 ![0, 1] bcast_S8192x1_S8192x1024_0_1 (broadcastInDim S8192x1 ![0] bcast_S8192_S8192x1_0 v) (ix2 r j) = v (ix1 r) :=
  (broadcastInDim_apply _ bcast_S8192x1_S8192x1024_0_1 _ (ix2 r j) (ix2 r (0 : Fin 1)) (fun a => match a with
    | ⟨0, _⟩ => by show r.val = if (8192 : Nat) = 1 then 0 else r.val; rw [if_neg (by decide)]
    | ⟨1, _⟩ => by show 0 = if (1 : Nat) = 1 then 0 else j.val; rw [if_pos rfl])).trans
  (broadcastInDim_apply _ bcast_S8192_S8192x1_0 v (ix2 r (0 : Fin 1)) (ix1 r) (fun a => match a with
    | ⟨0, _⟩ => by show r.val = if (8192 : Nat) = 1 then 0 else r.val; rw [if_neg (by decide)]))

/-- The same with the log taken between the two spreads. -/
theorem rowSpreadLog (v : S8192.Idx → EReal) (r : Fin 8192) (j : Fin 1024) :
    broadcastInDim S8192x1024 ![0, 1] bcast_S8192x1_S8192x1024_0_1
      (Host.log (F := Ideal) (φ := .f32) (broadcastInDim S8192x1 ![0] bcast_S8192_S8192x1_0 v)) (ix2 r j) = Ideal.log (v (ix1 r)) :=
  (broadcastInDim_apply _ bcast_S8192x1_S8192x1024_0_1 _ (ix2 r j) (ix2 r (0 : Fin 1)) (fun a => match a with
    | ⟨0, _⟩ => by show r.val = if (8192 : Nat) = 1 then 0 else r.val; rw [if_neg (by decide)]
    | ⟨1, _⟩ => by show 0 = if (1 : Nat) = 1 then 0 else j.val; rw [if_pos rfl])).trans
  (congrArg Ideal.log (broadcastInDim_apply _ bcast_S8192_S8192x1_0 v (ix2 r (0 : Fin 1)) (ix1 r) (fun a => match a with
    | ⟨0, _⟩ => by show r.val = if (8192 : Nat) = 1 then 0 else r.val; rw [if_neg (by decide)])))

variable (X H C : (⟨S8192x1024, .f32⟩ : BufTy).Contents (Elt Ideal)) (W U : (⟨S1024x4096, .f32⟩ : BufTy).Contents (Elt Ideal)) (b : (⟨S4096, .f32⟩ : BufTy).Contents (Elt Ideal)) (P : (⟨S1024x1024, .f32⟩ : BufTy).Contents (Elt Ideal)) (d : (⟨S1024, .f32⟩ : BufTy).Contents (Elt Ideal))

/-- The gate pre-activations at (r, q). -/
theorem gatesT_apply (r : Fin 8192) (q : Fin 4096) :
    gatesT (F := Ideal) X H W U b (ix2 r q) = gate (rowOf X r) (rowOf H r) (matOf W) (matOf U) (vecOf b) q := by
  unfold gatesT gate
  refine (congrArg₂ (· + ·) (congrArg₂ (· + ·) (gateDot X W r q) (gateDot H U r q)) (biasRow b r q)).trans ?_
  rfl

/-- A column block of the gates at (r, j) is the gates at (r, off + j). -/
theorem gateBlock (g : (⟨S8192x4096, .f32⟩ : BufTy).Contents (Elt Ideal)) (off : Nat) (hoff : off + 1024 ≤ 4096) (hs : S8192x4096.Slices ![0, off] S8192x1024) (r : Fin 8192) (j : Fin 1024) :
    extractStridedSlice S8192x1024 ![0, off] g hs (ix2 r j) = g (ix2 r (colAt off hoff j)) :=
  extractStridedSlice_apply ![0, off] g hs (ix2 r j) (ix2 r (colAt off hoff j)) (fun a => match a with
    | ⟨0, _⟩ => by show r.val = 0 + r.val; omega
    | ⟨1, _⟩ => by show off + j.val = off + j.val; rfl)

/-- The sigmoid as spelt by the reference is the logistic function. -/
theorem sigT_apply (g : (⟨S8192x1024, .f32⟩ : BufTy).Contents (Elt Ideal)) (i : S8192x1024.Idx) : sigT (F := Ideal) g i = Ideal.logistic (g i) := by
  unfold sigT onesT
  show Ideal.div (broadcastInDim S8192x1024 ![] bcast_S_S8192x1024 (constant (F := Ideal) S_ .f32 0x3F800000#32) i)
      (broadcastInDim S8192x1024 ![] bcast_S_S8192x1024 (constant (F := Ideal) S_ .f32 0x3F800000#32) i + Ideal.exp (-(g i))) = _
  rw [broadcastInDim_scalar_apply]
  show Ideal.div (Ideal.ofBits .f32 0x3F800000#32) (Ideal.ofBits .f32 0x3F800000#32 + Ideal.exp (-(g i))) = _
  rw [ofBits_one]
  rfl

/-- The new cell at (r, j). -/
theorem cellT_apply (r : Fin 8192) (j : Fin 1024) :
    cellT (F := Ideal) (gatesT X H W U b) C (ix2 r j) = cellAt X H C W U b r j := by
  unfold cellT cellAt cellNew
  show sigT (F := Ideal) _ (ix2 r j) * C (ix2 r j) + sigT (F := Ideal) _ (ix2 r j) * Ideal.tanh (extractStridedSlice S8192x1024 ![0, 2048] (gatesT X H W U b) slices_S8192x4096_S8192x1024_0_2048 (ix2 r j)) = _
  rw [sigT_apply, sigT_apply, gateBlock _ 0 (by decide), gateBlock _ 1024 (by decide), gateBlock _ 2048 (by decide),
    gatesT_apply, gatesT_apply, gatesT_apply]
  rfl

/-- The new hidden state at (r, j). -/
theorem hidT_apply (r : Fin 8192) (j : Fin 1024) :
    hidT (F := Ideal) (gatesT X H W U b) C (ix2 r j) = hidAt X H C W U b r j := by
  unfold hidT hidAt hidNew
  show sigT (F := Ideal) _ (ix2 r j) * Ideal.tanh (cellT (F := Ideal) (gatesT X H W U b) C (ix2 r j)) = _
  rw [sigT_apply, gateBlock _ 3072 (by decide), gatesT_apply, cellT_apply]
  rfl

/-- The hidden-state array is the specification's. -/
theorem hidT_eq : hidT (F := Ideal) (gatesT X H W U b) C = hidArr X H C W U b := by
  funext i
  obtain ⟨r, j, rfl⟩ : ∃ (r : Fin 8192) (j : Fin 1024), i = ix2 r j := ⟨i 0, i 1, eq_ix2 i⟩
  exact hidT_apply X H C W U b r j

/-- The cell-state array is the specification's. -/
theorem cellT_eq : cellT (F := Ideal) (gatesT X H W U b) C = cellArr X H C W U b := by
  funext i
  obtain ⟨r, j, rfl⟩ : ∃ (r : Fin 8192) (j : Fin 1024), i = ix2 r j := ⟨i 0, i 1, eq_ix2 i⟩
  exact cellT_apply X H C W U b r j

/-- The logits at (r, j), from a hidden-state array that is the specification's. -/
theorem logitsT_apply (hd : (⟨S8192x1024, .f32⟩ : BufTy).Contents (Elt Ideal)) (hhd : ∀ r k, hd (ix2 r k) = hidAt X H C W U b r k) (r : Fin 8192) (j : Fin 1024) :
    logitsT (F := Ideal) hd P d (ix2 r j) = logit (rowOf X r) (rowOf H r) (rowOf C r) (matOf W) (matOf U) (vecOf b) (matOf P) (vecOf d) j := by
  unfold logitsT logit
  refine (congrArg₂ (· + ·) (outDot hd P r j) (outBiasRow d r j)).trans ?_
  refine congrArg (· + vecOf d j) (Finset.sum_congr rfl fun k _ => ?_)
  rw [hhd r k]
  rfl

/-- Folding with the float maximum is folding with `max`. -/
theorem fold_maximumf_eq (s : Finset (Fin 1024)) (a : EReal) (g : Fin 1024 → EReal) :
    s.fold (FloatOps.maximumf (F := Ideal) (φ := .f32)) a g = s.fold max a g := by
  induction s using Finset.induction_on with
  | empty => rw [Finset.fold_empty, Finset.fold_empty]
  | insert x s hx ih => rw [Finset.fold_insert hx, Finset.fold_insert hx, ih]; rfl

/-- The reference's row maximum at r: the fold of max from minus infinity over the row. -/
theorem hostRowMax (l : (⟨S8192x1024, .f32⟩ : BufTy).Contents (Elt Ideal)) (r : Fin 8192) :
    Host.reduce FloatOps.maximumf l (constant (F := Ideal) S_ .f32 0xFF800000#32) reducesTo_S8192x1024_S8192_d1 h_S_ (ix1 r)
      = (Finset.univ : Finset (Fin 1024)).fold max ⊥ (fun k => l (ix2 r k)) := by
  have hR : S8192x1024.Reduces [1] S8192 := by decide
  refine (Host.reduce_eq_fold_single _ _ _ reducesTo_S8192x1024_S8192_d1 hR h_S_ (ix1 r)).trans ?_
  refine (fold_maximumf_eq Finset.univ _ _).trans ?_
  show Finset.fold max (Ideal.ofBits .f32 0xFF800000#32) (fun k => l (hR.lift (ix1 r) k)) Finset.univ = _
  rw [ofBits_neg_inf]
  refine congrArg (Finset.fold max ⊥ · Finset.univ) (funext fun k => ?_)
  exact congrArg l (funext fun a => Fin.ext (by match a with | ⟨0, _⟩ => rfl | ⟨1, _⟩ => rfl))

/-- The row maximum at r, for an array that reads `f r j` at (r, j). -/
theorem rowMaxT_apply (l : (⟨S8192x1024, .f32⟩ : BufTy).Contents (Elt Ideal)) (f : Fin 8192 → Fin 1024 → EReal) (hl : ∀ r j, l (ix2 r j) = f r j) (r : Fin 8192) :
    rowMaxT (F := Ideal) l (ix1 r) = (Finset.univ : Finset (Fin 1024)).fold max ⊥ (f r) := by
  unfold rowMaxT
  refine (maximumf_apply _ _ _).trans ?_
  rw [broadcastInDim_scalar_apply, hostRowMax, constant_apply, ofBits_neg_inf, max_eq_right bot_le]
  exact congrArg (Finset.fold max ⊥ · Finset.univ) (funext fun k => hl r k)

/-- The log-softmax at (r, j), for an array that reads `f r j` at (r, j). -/
theorem lsmT_apply (l : (⟨S8192x1024, .f32⟩ : BufTy).Contents (Elt Ideal)) (f : Fin 8192 → Fin 1024 → EReal) (hl : ∀ r j, l (ix2 r j) = f r j) (r : Fin 8192) (j : Fin 1024) :
    lsmT (F := Ideal) l (ix2 r j)
      = (f r j - (Finset.univ : Finset (Fin 1024)).fold max ⊥ (f r))
        - Ideal.log (∑ j' : Fin 1024, Ideal.exp (f r j' - (Finset.univ : Finset (Fin 1024)).fold max ⊥ (f r))) := by
  have hR : S8192x1024.Reduces [1] S8192 := by decide
  have hsh : ∀ j' : Fin 1024, shiftedT (F := Ideal) l (ix2 r j') = f r j' - (Finset.univ : Finset (Fin 1024)).fold max ⊥ (f r) := fun j' => by
    unfold shiftedT
    show l (ix2 r j') - broadcastInDim S8192x1024 ![0, 1] bcast_S8192x1_S8192x1024_0_1 (broadcastInDim S8192x1 ![0] bcast_S8192_S8192x1_0 (rowMaxT (F := Ideal) l)) (ix2 r j') = _
    rw [rowSpread, rowMaxT_apply l f hl r, hl]
  unfold lsmT
  show shiftedT (F := Ideal) l (ix2 r j) - broadcastInDim S8192x1024 ![0, 1] bcast_S8192x1_S8192x1024_0_1
      (Host.log (F := Ideal) (φ := .f32) (broadcastInDim S8192x1 ![0] bcast_S8192_S8192x1_0
        (Host.reduceAdd (Host.exp (shiftedT (F := Ideal) l)) (constant (F := Ideal) S_ .f32 0x00000000#32) reducesTo_S8192x1024_S8192_d1 h_S_))) (ix2 r j) = _
  rw [hsh, rowSpreadLog]
  refine congrArg (fun s : EReal => (f r j - (Finset.univ : Finset (Fin 1024)).fold max ⊥ (f r) : EReal) - Ideal.log s) ?_
  rw [hostReduceAdd_apply, Ideal.hostReduceAdd_single reducesTo_S8192x1024_S8192_d1 hR]
  show Ideal.ofBits .f32 0x00000000#32 + _ = _
  rw [Ideal.ofBits_zero_f32, zero_add]
  refine Finset.sum_congr rfl fun k _ => ?_
  have e : hR.lift (ix1 r) k = ix2 r k := funext fun a => Fin.ext (by match a with | ⟨0, _⟩ => rfl | ⟨1, _⟩ => rfl)
  rw [e]
  exact congrArg Ideal.exp (hsh k)

/-- The log-softmax array is the specification's. -/
theorem lsmT_eq : lsmT (F := Ideal) (logitsT (hidT (gatesT X H W U b) C) P d) = outArr X H C W U b P d := by
  funext i
  obtain ⟨r, j, rfl⟩ : ∃ (r : Fin 8192) (j : Fin 1024), i = ix2 r j := ⟨i 0, i 1, eq_ix2 i⟩
  rw [lsmT_apply _ (fun r j => logit (rowOf X r) (rowOf H r) (rowOf C r) (matOf W) (matOf U) (vecOf b) (matOf P) (vecOf d) j) (fun r j => logitsT_apply X H C W U b P d _ (hidT_apply X H C W U b) r j) r j]
  rfl

end Cert.ReferenceIdeal.RefIndex

end
-- ==== Proof.RefKept.lean ====
/-
  No operation of the reference writes an argument: each argument buffer ends the run as it was launched.
-/
import proofs.«145524_j53188874993812_1_alg».proof.Proof.RefRun

noncomputable section

namespace Cert.ReferenceIdeal.RefKept

open Cert.ReferenceIdeal Cert.ReferenceIdeal.Gen Cert.ReferenceIdeal.RefRun
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

set_option maxRecDepth 16384 in
set_option maxHeartbeats 4000000 in
theorem kept_arg0 : after (ops (F := F)) (launchContents m c) (Proc.devRef .tc main_arg0) = m ((c.tc : Thread nD τ).loc main_arg0) := by
  after_results_simp
  all_goals (try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)])
  all_goals (try rfl)
set_option maxRecDepth 16384 in
set_option maxHeartbeats 4000000 in
theorem kept_arg1 : after (ops (F := F)) (launchContents m c) (Proc.devRef .tc main_arg1) = m ((c.tc : Thread nD τ).loc main_arg1) := by
  after_results_simp
  all_goals (try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)])
  all_goals (try rfl)
set_option maxRecDepth 16384 in
set_option maxHeartbeats 4000000 in
theorem kept_arg2 : after (ops (F := F)) (launchContents m c) (Proc.devRef .tc main_arg2) = m ((c.tc : Thread nD τ).loc main_arg2) := by
  after_results_simp
  all_goals (try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)])
  all_goals (try rfl)
set_option maxRecDepth 16384 in
set_option maxHeartbeats 4000000 in
theorem kept_arg3 : after (ops (F := F)) (launchContents m c) (Proc.devRef .tc main_arg3) = m ((c.tc : Thread nD τ).loc main_arg3) := by
  after_results_simp
  all_goals (try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)])
  all_goals (try rfl)
set_option maxRecDepth 16384 in
set_option maxHeartbeats 4000000 in
theorem kept_arg4 : after (ops (F := F)) (launchContents m c) (Proc.devRef .tc main_arg4) = m ((c.tc : Thread nD τ).loc main_arg4) := by
  after_results_simp
  all_goals (try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)])
  all_goals (try rfl)
set_option maxRecDepth 16384 in
set_option maxHeartbeats 4000000 in
theorem kept_arg5 : after (ops (F := F)) (launchContents m c) (Proc.devRef .tc main_arg5) = m ((c.tc : Thread nD τ).loc main_arg5) := by
  after_results_simp
  all_goals (try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)])
  all_goals (try rfl)
set_option maxRecDepth 16384 in
set_option maxHeartbeats 4000000 in
theorem kept_arg6 : after (ops (F := F)) (launchContents m c) (Proc.devRef .tc main_arg6) = m ((c.tc : Thread nD τ).loc main_arg6) := by
  after_results_simp
  all_goals (try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)])
  all_goals (try rfl)
set_option maxRecDepth 16384 in
set_option maxHeartbeats 4000000 in
theorem kept_arg7 : after (ops (F := F)) (launchContents m c) (Proc.devRef .tc main_arg7) = m ((c.tc : Thread nD τ).loc main_arg7) := by
  after_results_simp
  all_goals (try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)])
  all_goals (try rfl)
set_option maxRecDepth 16384 in
set_option maxHeartbeats 4000000 in
theorem kept_arg8 : after (ops (F := F)) (launchContents m c) (Proc.devRef .tc main_arg8) = m ((c.tc : Thread nD τ).loc main_arg8) := by
  after_results_simp
  all_goals (try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)])
  all_goals (try rfl)
set_option maxRecDepth 16384 in
set_option maxHeartbeats 4000000 in
theorem kept_arg9 : after (ops (F := F)) (launchContents m c) (Proc.devRef .tc main_arg9) = m ((c.tc : Thread nD τ).loc main_arg9) := by
  after_results_simp
  all_goals (try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)])
  all_goals (try rfl)
set_option maxRecDepth 16384 in
set_option maxHeartbeats 4000000 in
theorem kept_arg10 : after (ops (F := F)) (launchContents m c) (Proc.devRef .tc main_arg10) = m ((c.tc : Thread nD τ).loc main_arg10) := by
  after_results_simp
  all_goals (try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)])
  all_goals (try rfl)
set_option maxRecDepth 16384 in
set_option maxHeartbeats 4000000 in
theorem kept_arg11 : after (ops (F := F)) (launchContents m c) (Proc.devRef .tc main_arg11) = m ((c.tc : Thread nD τ).loc main_arg11) := by
  after_results_simp
  all_goals (try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)])
  all_goals (try rfl)
set_option maxRecDepth 16384 in
set_option maxHeartbeats 4000000 in
theorem kept_arg12 : after (ops (F := F)) (launchContents m c) (Proc.devRef .tc main_arg12) = m ((c.tc : Thread nD τ).loc main_arg12) := by
  after_results_simp
  all_goals (try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)])
  all_goals (try rfl)
set_option maxRecDepth 16384 in
set_option maxHeartbeats 4000000 in
theorem kept_arg13 : after (ops (F := F)) (launchContents m c) (Proc.devRef .tc main_arg13) = m ((c.tc : Thread nD τ).loc main_arg13) := by
  after_results_simp
  all_goals (try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)])
  all_goals (try rfl)
set_option maxRecDepth 16384 in
set_option maxHeartbeats 4000000 in
theorem kept_arg14 : after (ops (F := F)) (launchContents m c) (Proc.devRef .tc main_arg14) = m ((c.tc : Thread nD τ).loc main_arg14) := by
  after_results_simp
  all_goals (try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)])
  all_goals (try rfl)
set_option maxRecDepth 16384 in
set_option maxHeartbeats 4000000 in
theorem kept_arg15 : after (ops (F := F)) (launchContents m c) (Proc.devRef .tc main_arg15) = m ((c.tc : Thread nD τ).loc main_arg15) := by
  after_results_simp
  all_goals (try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)])
  all_goals (try rfl)
set_option maxRecDepth 16384 in
set_option maxHeartbeats 4000000 in
theorem kept_arg16 : after (ops (F := F)) (launchContents m c) (Proc.devRef .tc main_arg16) = m ((c.tc : Thread nD τ).loc main_arg16) := by
  after_results_simp
  all_goals (try simp only [StableHlo.nary_result_ne _ _ _ _ _ (show (main_arg4 : Ref sig .tc) ≠ main_v0 by decide),
    StableHlo.nary_result_ne _ _ _ _ _ (show (main_arg7 : Ref sig .tc) ≠ main_v0 by decide),
    StableHlo.nary_result_ne _ _ _ _ _ (show (main_arg10 : Ref sig .tc) ≠ main_v0 by decide),
    StableHlo.nary_result_ne _ _ _ _ _ (show (main_arg13 : Ref sig .tc) ≠ main_v0 by decide),
    StableHlo.nary_result_ne _ _ _ _ _ (show (main_arg5 : Ref sig .tc) ≠ main_v0 by decide),
    StableHlo.nary_result_ne _ _ _ _ _ (show (main_arg8 : Ref sig .tc) ≠ main_v0 by decide),
    StableHlo.nary_result_ne _ _ _ _ _ (show (main_arg11 : Ref sig .tc) ≠ main_v0 by decide),
    StableHlo.nary_result_ne _ _ _ _ _ (show (main_arg14 : Ref sig .tc) ≠ main_v0 by decide),
    StableHlo.nary_result_ne _ _ _ _ _ (show (main_arg5 : Ref sig .tc) ≠ main_v1 by decide),
    StableHlo.nary_result_ne _ _ _ _ _ (show (main_arg8 : Ref sig .tc) ≠ main_v1 by decide),
    StableHlo.nary_result_ne _ _ _ _ _ (show (main_arg11 : Ref sig .tc) ≠ main_v1 by decide),
    StableHlo.nary_result_ne _ _ _ _ _ (show (main_arg14 : Ref sig .tc) ≠ main_v1 by decide)])
  all_goals (try rfl)

end Cert.ReferenceIdeal.RefKept

end
-- ==== Proof.lean ====
/-
  An LSTM step with a log-softmax read-out: a Pallas kernel tiled over sixteen blocks of 512 rows, against its jnp
  reference, on the extended reals.
  Both programs compute, for each row, the gate pre-activations x·[W_f|W_i|W_c|W_o] + h·[U_f|U_i|U_c|U_o] + [b_f|b_i|b_c|b_o],
  the new cell σ(f)·c + σ(i)·tanh(g), the new hidden state σ(o)·tanh(cell), the logits hidden·W_h + b_h and their
  log-softmax. The kernel narrows its matrix operands to bf16 (the identity here), multiplies into zero accumulators
  (the plain sums), uses the logistic function where the reference writes 1 / (1 + exp(−x)) (one function), and takes
  the row maximum from minus infinity where the reference also takes a further maximum with minus infinity (no
  change): the same sums, products and functions in the same order, so no law that needs finiteness is used.
  The frames: no host line writes an argument, and the region writes only its three results.
-/
import proofs.«145524_j53188874993812_1_alg».proof.Defs
import proofs.«145524_j53188874993812_1_alg».proof.Proof.Gen.Kernel
import proofs.«145524_j53188874993812_1_alg».proof.Proof.Gen.KernelIdeal
import proofs.«145524_j53188874993812_1_alg».proof.Proof.Gen.ReferenceIdeal
import proofs.«145524_j53188874993812_1_alg».proof.Proof.Gen.Pre_finite_inputs
import proofs.«145524_j53188874993812_1_alg».proof.Proof.KernelFrame
import proofs.«145524_j53188874993812_1_alg».proof.Proof.KernelValue
import proofs.«145524_j53188874993812_1_alg».proof.Proof.RefIndex
import proofs.«145524_j53188874993812_1_alg».proof.Proof.RefKept
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Lstm.frame m ρ

theorem frame_ki : Cert.frame_KernelIdeal := fun m ρ _ => Cert.KernelIdeal.Lstm.frame m ρ

/-- The reference's arguments end as launched: its run, read at the argument buffers. -/
theorem frame_ri : Cert.frame_ReferenceIdeal := fun m ρ _ =>
  (θ_run Cert.ReferenceIdeal.defs _ _).mono (fun r h c => ⟨(h c Cert.ReferenceIdeal.main_arg0).trans (Cert.ReferenceIdeal.RefKept.kept_arg0 m c),
    (h c Cert.ReferenceIdeal.main_arg1).trans (Cert.ReferenceIdeal.RefKept.kept_arg1 m c),
    (h c Cert.ReferenceIdeal.main_arg2).trans (Cert.ReferenceIdeal.RefKept.kept_arg2 m c),
    (h c Cert.ReferenceIdeal.main_arg3).trans (Cert.ReferenceIdeal.RefKept.kept_arg3 m c),
    (h c Cert.ReferenceIdeal.main_arg4).trans (Cert.ReferenceIdeal.RefKept.kept_arg4 m c),
    (h c Cert.ReferenceIdeal.main_arg5).trans (Cert.ReferenceIdeal.RefKept.kept_arg5 m c),
    (h c Cert.ReferenceIdeal.main_arg6).trans (Cert.ReferenceIdeal.RefKept.kept_arg6 m c),
    (h c Cert.ReferenceIdeal.main_arg7).trans (Cert.ReferenceIdeal.RefKept.kept_arg7 m c),
    (h c Cert.ReferenceIdeal.main_arg8).trans (Cert.ReferenceIdeal.RefKept.kept_arg8 m c),
    (h c Cert.ReferenceIdeal.main_arg9).trans (Cert.ReferenceIdeal.RefKept.kept_arg9 m c),
    (h c Cert.ReferenceIdeal.main_arg10).trans (Cert.ReferenceIdeal.RefKept.kept_arg10 m c),
    (h c Cert.ReferenceIdeal.main_arg11).trans (Cert.ReferenceIdeal.RefKept.kept_arg11 m c),
    (h c Cert.ReferenceIdeal.main_arg12).trans (Cert.ReferenceIdeal.RefKept.kept_arg12 m c),
    (h c Cert.ReferenceIdeal.main_arg13).trans (Cert.ReferenceIdeal.RefKept.kept_arg13 m c),
    (h c Cert.ReferenceIdeal.main_arg14).trans (Cert.ReferenceIdeal.RefKept.kept_arg14 m c),
    (h c Cert.ReferenceIdeal.main_arg15).trans (Cert.ReferenceIdeal.RefKept.kept_arg15 m c),
    (h c Cert.ReferenceIdeal.main_arg16).trans (Cert.ReferenceIdeal.RefKept.kept_arg16 m c)⟩)
    (Cert.ReferenceIdeal.RefRun.run_ops (F := Ideal) m ρ)

/-- The ideal pass rewrote nothing. -/
theorem preserves : Cert.preserves_Kernel_KernelIdeal := trivial

/-- Both runs end with the specification's three arrays of the (agreeing) arguments. -/
theorem algebraic : Cert.algebraic_KernelIdeal_ReferenceIdeal := by
  intro m ρ m' ρ' _ hagree
  refine ⟨_, _, _, Cert.KernelIdeal.LstmValue.run m ρ, ?_⟩
  refine (θ_run Cert.ReferenceIdeal.defs _ _).mono (fun r h c => ?_) (Cert.ReferenceIdeal.RefRun.run_ops (F := Ideal) m' ρ')
  obtain ⟨a0, a1, a2, a3, a4, a5, a6, a7, a8, a9, a10, a11, a12, a13, a14, a15, a16⟩ := hagree c
  have e0 : (Idealize.ShloMosaic.StableHlo.launchContents m' c (Proc.devRef .tc Cert.ReferenceIdeal.main_arg0)) = (m ((c.tc : Thread Cert.KernelIdeal.nD Cert.KernelIdeal.τ).loc Cert.KernelIdeal.main_arg0)) := a0
  have e1 : (Idealize.ShloMosaic.StableHlo.launchContents m' c (Proc.devRef .tc Cert.ReferenceIdeal.main_arg1)) = (m ((c.tc : Thread Cert.KernelIdeal.nD Cert.KernelIdeal.τ).loc Cert.KernelIdeal.main_arg1)) := a1
  have e2 : (Idealize.ShloMosaic.StableHlo.launchContents m' c (Proc.devRef .tc Cert.ReferenceIdeal.main_arg2)) = (m ((c.tc : Thread Cert.KernelIdeal.nD Cert.KernelIdeal.τ).loc Cert.KernelIdeal.main_arg2)) := a2
  have e3 : (Idealize.ShloMosaic.StableHlo.launchContents m' c (Proc.devRef .tc Cert.ReferenceIdeal.main_arg3)) = (m ((c.tc : Thread Cert.KernelIdeal.nD Cert.KernelIdeal.τ).loc Cert.KernelIdeal.main_arg3)) := a3
  have e4 : (Idealize.ShloMosaic.StableHlo.launchContents m' c (Proc.devRef .tc Cert.ReferenceIdeal.main_arg4)) = (m ((c.tc : Thread Cert.KernelIdeal.nD Cert.KernelIdeal.τ).loc Cert.KernelIdeal.main_arg4)) := a4
  have e5 : (Idealize.ShloMosaic.StableHlo.launchContents m' c (Proc.devRef .tc Cert.ReferenceIdeal.main_arg5)) = (m ((c.tc : Thread Cert.KernelIdeal.nD Cert.KernelIdeal.τ).loc Cert.KernelIdeal.main_arg5)) := a5
  have e6 : (Idealize.ShloMosaic.StableHlo.launchContents m' c (Proc.devRef .tc Cert.ReferenceIdeal.main_arg6)) = (m ((c.tc : Thread Cert.KernelIdeal.nD Cert.KernelIdeal.τ).loc Cert.KernelIdeal.main_arg6)) := a6
  have e7 : (Idealize.ShloMosaic.StableHlo.launchContents m' c (Proc.devRef .tc Cert.ReferenceIdeal.main_arg7)) = (m ((c.tc : Thread Cert.KernelIdeal.nD Cert.KernelIdeal.τ).loc Cert.KernelIdeal.main_arg7)) := a7
  have e8 : (Idealize.ShloMosaic.StableHlo.launchContents m' c (Proc.devRef .tc Cert.ReferenceIdeal.main_arg8)) = (m ((c.tc : Thread Cert.KernelIdeal.nD Cert.KernelIdeal.τ).loc Cert.KernelIdeal.main_arg8)) := a8
  have e9 : (Idealize.ShloMosaic.StableHlo.launchContents m' c (Proc.devRef .tc Cert.ReferenceIdeal.main_arg9)) = (m ((c.tc : Thread Cert.KernelIdeal.nD Cert.KernelIdeal.τ).loc Cert.KernelIdeal.main_arg9)) := a9
  have e10 : (Idealize.ShloMosaic.StableHlo.launchContents m' c (Proc.devRef .tc Cert.ReferenceIdeal.main_arg10)) = (m ((c.tc : Thread Cert.KernelIdeal.nD Cert.KernelIdeal.τ).loc Cert.KernelIdeal.main_arg10)) := a10
  have e11 : (Idealize.ShloMosaic.StableHlo.launchContents m' c (Proc.devRef .tc Cert.ReferenceIdeal.main_arg11)) = (m ((c.tc : Thread Cert.KernelIdeal.nD Cert.KernelIdeal.τ).loc Cert.KernelIdeal.main_arg11)) := a11
  have e12 : (Idealize.ShloMosaic.StableHlo.launchContents m' c (Proc.devRef .tc Cert.ReferenceIdeal.main_arg12)) = (m ((c.tc : Thread Cert.KernelIdeal.nD Cert.KernelIdeal.τ).loc Cert.KernelIdeal.main_arg12)) := a12
  have e13 : (Idealize.ShloMosaic.StableHlo.launchContents m' c (Proc.devRef .tc Cert.ReferenceIdeal.main_arg13)) = (m ((c.tc : Thread Cert.KernelIdeal.nD Cert.KernelIdeal.τ).loc Cert.KernelIdeal.main_arg13)) := a13
  have e14 : (Idealize.ShloMosaic.StableHlo.launchContents m' c (Proc.devRef .tc Cert.ReferenceIdeal.main_arg14)) = (m ((c.tc : Thread Cert.KernelIdeal.nD Cert.KernelIdeal.τ).loc Cert.KernelIdeal.main_arg14)) := a14
  have e15 : (Idealize.ShloMosaic.StableHlo.launchContents m' c (Proc.devRef .tc Cert.ReferenceIdeal.main_arg15)) = (m ((c.tc : Thread Cert.KernelIdeal.nD Cert.KernelIdeal.τ).loc Cert.KernelIdeal.main_arg15)) := a15
  have e16 : (Idealize.ShloMosaic.StableHlo.launchContents m' c (Proc.devRef .tc Cert.ReferenceIdeal.main_arg16)) = (m ((c.tc : Thread Cert.KernelIdeal.nD Cert.KernelIdeal.τ).loc Cert.KernelIdeal.main_arg16)) := a16
  refine ⟨(h c Cert.ReferenceIdeal.main_v41).trans ?_, (h c Cert.ReferenceIdeal.main_v36).trans ?_, (h c Cert.ReferenceIdeal.main_v34).trans ?_,
    (h c Cert.ReferenceIdeal.main_arg0).trans (Cert.ReferenceIdeal.RefKept.kept_arg0 m' c),
    (h c Cert.ReferenceIdeal.main_arg1).trans (Cert.ReferenceIdeal.RefKept.kept_arg1 m' c),
    (h c Cert.ReferenceIdeal.main_arg2).trans (Cert.ReferenceIdeal.RefKept.kept_arg2 m' c),
    (h c Cert.ReferenceIdeal.main_arg3).trans (Cert.ReferenceIdeal.RefKept.kept_arg3 m' c),
    (h c Cert.ReferenceIdeal.main_arg4).trans (Cert.ReferenceIdeal.RefKept.kept_arg4 m' c),
    (h c Cert.ReferenceIdeal.main_arg5).trans (Cert.ReferenceIdeal.RefKept.kept_arg5 m' c),
    (h c Cert.ReferenceIdeal.main_arg6).trans (Cert.ReferenceIdeal.RefKept.kept_arg6 m' c),
    (h c Cert.ReferenceIdeal.main_arg7).trans (Cert.ReferenceIdeal.RefKept.kept_arg7 m' c),
    (h c Cert.ReferenceIdeal.main_arg8).trans (Cert.ReferenceIdeal.RefKept.kept_arg8 m' c),
    (h c Cert.ReferenceIdeal.main_arg9).trans (Cert.ReferenceIdeal.RefKept.kept_arg9 m' c),
    (h c Cert.ReferenceIdeal.main_arg10).trans (Cert.ReferenceIdeal.RefKept.kept_arg10 m' c),
    (h c Cert.ReferenceIdeal.main_arg11).trans (Cert.ReferenceIdeal.RefKept.kept_arg11 m' c),
    (h c Cert.ReferenceIdeal.main_arg12).trans (Cert.ReferenceIdeal.RefKept.kept_arg12 m' c),
    (h c Cert.ReferenceIdeal.main_arg13).trans (Cert.ReferenceIdeal.RefKept.kept_arg13 m' c),
    (h c Cert.ReferenceIdeal.main_arg14).trans (Cert.ReferenceIdeal.RefKept.kept_arg14 m' c),
    (h c Cert.ReferenceIdeal.main_arg15).trans (Cert.ReferenceIdeal.RefKept.kept_arg15 m' c),
    (h c Cert.ReferenceIdeal.main_arg16).trans (Cert.ReferenceIdeal.RefKept.kept_arg16 m' c)⟩
  · rw [Cert.ReferenceIdeal.RefEval.eval_out, Cert.ReferenceIdeal.RefIndex.lsmT_eq, e0, e1, e2, e3, e4, e5, e6, e7, e8, e9, e10, e11, e12, e13, e14, e15, e16]
    rfl
  · rw [Cert.ReferenceIdeal.RefEval.eval_hid, Cert.ReferenceIdeal.RefIndex.hidT_eq, e0, e1, e2, e3, e4, e5, e6, e7, e8, e9, e10, e11, e12, e13, e14]
    rfl
  · rw [Cert.ReferenceIdeal.RefEval.eval_cell, Cert.ReferenceIdeal.RefIndex.cellT_eq, e0, e1, e2, e3, e4, e5, e6, e7, e8, e9, e10, e11, e12, e13, e14]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
